-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S1 : Shape := ⟨1, ![1]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1 .f32) (main_arg10 : FVec F S1 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1 .f32) (main_arg10 : FVec F S1 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1 .f32) (main_arg10 : FVec F S1 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S1 : Shape := ⟨1, ![1]⟩
abbrev S4096x1024 : Shape := ⟨2, ![4096, 1024]⟩
abbrev S1x1024 : Shape := ⟨2, ![1, 1024]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S1x1 : Shape := ⟨2, ![1, 1]⟩
abbrev S32x2048x1 : Shape := ⟨3, ![32, 2048, 1]⟩
abbrev S1x1024x64 : Shape := ⟨3, ![1, 1024, 64]⟩
abbrev S1x2048x64 : Shape := ⟨3, ![1, 2048, 64]⟩
abbrev S1x1024x1 : Shape := ⟨3, ![1, 1024, 1]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S2x16x2048 : Shape := ⟨3, ![2, 16, 2048]⟩

abbrev nBuf : Space → Nat
  | .hbm => 46
  | .vmem => 36
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1, .f32⟩
  | .hbm, ⟨10, _⟩ => ⟨S1, .f32⟩
  | .hbm, ⟨11, _⟩ => ⟨S4096x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4096x1024, .bf16⟩
  | .hbm, ⟨25, _⟩ => ⟨S4096x1024, .bf16⟩
  | .hbm, ⟨26, _⟩ => ⟨S4096x1024, .bf16⟩
  | .hbm, ⟨27, _⟩ => ⟨S2x2048x16x64, .bf16⟩
  | .hbm, ⟨28, _⟩ => ⟨S2x16x2048x64, .bf16⟩
  | .hbm, ⟨29, _⟩ => ⟨S32x2048x64, .bf16⟩
  | .hbm, ⟨30, _⟩ => ⟨S2x2048x16x64, .bf16⟩
  | .hbm, ⟨31, _⟩ => ⟨S2x16x2048x64, .bf16⟩
  | .hbm, ⟨32, _⟩ => ⟨S32x2048x64, .bf16⟩
  | .hbm, ⟨33, _⟩ => ⟨S2x2048x16x64, .bf16⟩
  | .hbm, ⟨34, _⟩ => ⟨S2x16x2048x64, .bf16⟩
  | .hbm, ⟨35, _⟩ => ⟨S32x2048x64, .bf16⟩
  | .hbm, ⟨36, _⟩ => ⟨S1x1, .f32⟩
  | .hbm, ⟨37, _⟩ => ⟨S1x1, .f32⟩
  | .hbm, ⟨38, _⟩ => ⟨S32x2048x64, .bf16⟩
  | .hbm, ⟨39, _⟩ => ⟨S32x2048x1, .f32⟩
  | .hbm, ⟨40, _⟩ => ⟨S2x16x2048x64, .bf16⟩
  | .hbm, ⟨41, _⟩ => ⟨S2x2048x16x64, .bf16⟩
  | .hbm, ⟨42, _⟩ => ⟨S4096x1024, .bf16⟩
  | .hbm, ⟨43, _⟩ => ⟨S4096x1024, .f32⟩
  | .hbm, ⟨44, _⟩ => ⟨S2x2048x1024, .f32⟩
  | .hbm, ⟨45, _⟩ => ⟨S2x16x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x1, .f32⟩
  | .local _ .vmem, ⟨19, _⟩ => ⟨S1x1, .f32⟩
  | .local _ .vmem, ⟨20, _⟩ => ⟨S1x1024x64, .bf16⟩
  | .local _ .vmem, ⟨21, _⟩ => ⟨S1x1024x64, .bf16⟩
  | .local _ .vmem, ⟨22, _⟩ => ⟨S1x2048x64, .bf16⟩
  | .local _ .vmem, ⟨23, _⟩ => ⟨S1x2048x64, .bf16⟩
  | .local _ .vmem, ⟨24, _⟩ => ⟨S1x2048x64, .bf16⟩
  | .local _ .vmem, ⟨25, _⟩ => ⟨S1x2048x64, .bf16⟩
  | .local _ .vmem, ⟨26, _⟩ => ⟨S1x1024x64, .bf16⟩
  | .local _ .vmem, ⟨27, _⟩ => ⟨S1x1024x64, .bf16⟩
  | .local _ .vmem, ⟨28, _⟩ => ⟨S1x1024x1, .f32⟩
  | .local _ .vmem, ⟨29, _⟩ => ⟨S1x1024x1, .f32⟩
  | .local _ .vmem, ⟨30, _⟩ => ⟨S512x1024, .bf16⟩
  | .local _ .vmem, ⟨31, _⟩ => ⟨S512x1024, .bf16⟩
  | .local _ .vmem, ⟨32, _⟩ => ⟨S1024x1024, .bf16⟩
  | .local _ .vmem, ⟨33, _⟩ => ⟨S1x1024, .f32⟩
  | .local _ .vmem, ⟨34, _⟩ => ⟨S512x1024, .f32⟩
  | .local _ .vmem, ⟨35, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc3_stg6_0 : Ref sig .tc := ⟨.vmem, 28, rfl⟩
abbrev cc3_stg6_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23
abbrev cc3_sem4_0 : DmaSem sig := 24
abbrev cc3_sem4_1 : DmaSem sig := 25
abbrev cc3_sem5_0 : DmaSem sig := 26
abbrev cc3_sem5_1 : DmaSem sig := 27
abbrev cc3_sem6_0 : DmaSem sig := 28
abbrev cc3_sem6_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![32, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .vmem S1x1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x1024x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x2048x64 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x2048x64 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x1024x64 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x1024x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x2048x1024_S4096x1024 : S2x2048x1024.ShapeCasts S4096x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  shapeCasts_S1_S1x1 : S1.ShapeCasts S1x1
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S1024x2048_S1024 : S1024x2048.Reduces [1] S1024
  shapeCasts_S1024_S1024x1 : S1024.ShapeCasts S1024x1
  broadcasts_S1024x1_S1024x2048 : S1024x1.Broadcasts S1024x2048
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  shapeCasts_S32x2048x1_S2x16x2048 : S32x2048x1.ShapeCasts S2x16x2048
  dot_S512x1024_S1024x1024_S512x1024_1_0_0_1_n_n_wf : DotDims.WF S512x1024 S1024x1024 S512x1024 [1] [0] [0] [1] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x1.size a ≤ S1x1.size a
  hwx3_0 : ∀ i : grid3.Coords, EltTy.bits .f32 = 32 ∨ (Rect.block (s := S1x1) S1x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1024x64.size a ≤ S32x2048x64.size a
  hwx3_2 : ∀ i : grid3.Coords, EltTy.bits .bf16 = 32 ∨ (Rect.block (s := S32x2048x64) S1x1024x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x2048x64.size a ≤ S32x2048x64.size a
  hwx3_3 : ∀ i : grid3.Coords, EltTy.bits .bf16 = 32 ∨ (Rect.block (s := S32x2048x64) S1x2048x64.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2048x64.size a ≤ S32x2048x64.size a
  hwx3_4 : ∀ i : grid3.Coords, EltTy.bits .bf16 = 32 ∨ (Rect.block (s := S32x2048x64) S1x2048x64.size (cc3_transform_4 i) (hinb3_4 i)).WholeWords (EltTy.packing .bf16)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1024x64.size a ≤ S32x2048x64.size a
  hwx3_5 : ∀ i : grid3.Coords, EltTy.bits .bf16 = 32 ∨ (Rect.block (s := S32x2048x64) S1x1024x64.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x1024x1.size a ≤ S32x2048x1.size a
  hwx3_6 : ∀ i : grid3.Coords, EltTy.bits .f32 = 32 ∨ (Rect.block (s := S32x2048x1) S1x1024x1.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .bf16 = 32 ∨ (Rect.block (s := S4096x1024) S512x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S1x1.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v18) S1x1024x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v21) S1x2048x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v24) S1x2048x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v27_0) S1x1024x64.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v27_1) S1x1024x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v30) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v31) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S1 : Shape := ⟨1, ![1]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S1x1x1x1 : Shape := ⟨4, ![1, 1, 1, 1]⟩
abbrev S2x16x2048 : Shape := ⟨3, ![2, 16, 2048]⟩
abbrev S2x16x2048x1 : Shape := ⟨4, ![2, 16, 2048, 1]⟩

abbrev nBuf : Space → Nat
  | .hbm => 59
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1, .f32⟩
  | .hbm, ⟨10, _⟩ => ⟨S1, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S1x1x1x1, .f32⟩
  | .hbm, ⟨35, _⟩ => ⟨S2x16x2048x2048, .f32⟩
  | .hbm, ⟨36, _⟩ => ⟨S2x16x2048x2048, .f32⟩
  | .hbm, ⟨37, _⟩ => ⟨S_, .f32⟩
  | .hbm, ⟨38, _⟩ => ⟨S2x16x2048x2048, .f32⟩
  | .hbm, ⟨39, _⟩ => ⟨S2x16x2048x2048, .f32⟩
  | .hbm, ⟨40, _⟩ => ⟨S1x1x1x1, .f32⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S2x16x2048x1, .f32⟩
  | .hbm, ⟨46, _⟩ => ⟨S_, .f32⟩
  | .hbm, ⟨47, _⟩ => ⟨S2x16x2048x1, .f32⟩
  | .hbm, ⟨48, _⟩ => ⟨S2x16x2048x1, .f32⟩
  | .hbm, ⟨49, _⟩ => ⟨S2x16x2048x2048, .f32⟩
  | .hbm, ⟨50, _⟩ => ⟨S2x16x2048x2048, .f32⟩
  | .hbm, ⟨51, _⟩ => ⟨S2x16x2048x64, .f32⟩
  | .hbm, ⟨52, _⟩ => ⟨S2x2048x16x64, .f32⟩
  | .hbm, ⟨53, _⟩ => ⟨S2x2048x1024, .f32⟩
  | .hbm, ⟨54, _⟩ => ⟨S2x2048x1024, .f32⟩
  | .hbm, ⟨55, _⟩ => ⟨S1x1x1024, .f32⟩
  | .hbm, ⟨56, _⟩ => ⟨S2x2048x1024, .f32⟩
  | .hbm, ⟨57, _⟩ => ⟨S2x2048x1024, .f32⟩
  | .hbm, ⟨58, _⟩ => ⟨S2x16x2048, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  bcast_S1_S1x1x1x1_3 : S1.BroadcastsInDim S1x1x1x1 (![3] : Fin 1 → Fin S1x1x1x1.rank)
  bcast_S1x1x1x1_S2x16x2048x2048_0_1_2_3 : S1x1x1x1.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  shapeCasts_S2x16x2048x1_S2x16x2048 : S2x16x2048x1.ShapeCasts S2x16x2048
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Boundary.lean ====
/-
  The contents of the idealized kernel's buffers at the boundaries between the segments of @main.

  @main is host operations, three projection launches, host operations, the attention launch, host operations, the
  output projection launch, host operations. A launch changes only its output arrays: an input window's array is
  left as entered and every buffer that is no window's array is untouched. A host stretch writes each operation's
  result buffer with the operation's function of its operand buffers and leaves every other buffer alone. Read at
  the buffers the later segments use, this gives each of them as a layout operation of an earlier buffer, or as
  the buffer it was at an earlier boundary, back to the launch memory.
-/
import proofs.«163043_j63943473103359_1_alg».proof.Proof.Gen.KernelIdeal.Frame
import Idealize.ShloMosaic.Lib.StableHlo.Run
import Idealize.ShloMosaic.Lib.Pipeline.Value

set_option maxRecDepth 16384

noncomputable section

namespace Cert.KernelIdeal.Boundary

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## A launch changes only its output arrays

An input window's array is left as the launch found it; a buffer that is none of the launch's arrays is not touched. -/

/-- The query projection's launch writes only its output. -/
theorem keep2 (c : Dev nD) (b : Ref sig .tc) (hb : b ≠ main_v13) :
    W2 m ρ c (Proc.devRef .tc b) = W1 m ρ c (Proc.devRef .tc b) := by
  by_cases h : ∃ w, Pipeline.arrRef spec0 w = b
  · obtain ⟨w, rfl⟩ := h
    rw [W2_arr]
    match w with
    | ⟨0, _⟩ => rw [Dat.arrAt_in _ _ rfl, A_eq0]
    | ⟨1, _⟩ => rw [Dat.arrAt_in _ _ rfl, A_eq0]
    | ⟨2, _⟩ => rw [Dat.arrAt_in _ _ rfl, A_eq0]
    | ⟨3, _⟩ => exact absurd rfl hb
  · exact W2_of_ne m ρ c b (fun w e => h ⟨w, e⟩)

/-- The key projection's launch writes only its output. -/
theorem keep3 (c : Dev nD) (b : Ref sig .tc) (hb : b ≠ main_v14) :
    W3 m ρ c (Proc.devRef .tc b) = W2 m ρ c (Proc.devRef .tc b) := by
  by_cases h : ∃ w, Pipeline.arrRef spec1 w = b
  · obtain ⟨w, rfl⟩ := h
    rw [W3_arr]
    match w with
    | ⟨0, _⟩ => rw [Dat.arrAt_in _ _ rfl, A_eq1]
    | ⟨1, _⟩ => rw [Dat.arrAt_in _ _ rfl, A_eq1]
    | ⟨2, _⟩ => rw [Dat.arrAt_in _ _ rfl, A_eq1]
    | ⟨3, _⟩ => exact absurd rfl hb
  · exact W3_of_ne m ρ c b (fun w e => h ⟨w, e⟩)

/-- The value projection's launch writes only its output. -/
theorem keep4 (c : Dev nD) (b : Ref sig .tc) (hb : b ≠ main_v15) :
    W4 m ρ c (Proc.devRef .tc b) = W3 m ρ c (Proc.devRef .tc b) := by
  by_cases h : ∃ w, Pipeline.arrRef spec2 w = b
  · obtain ⟨w, rfl⟩ := h
    rw [W4_arr]
    match w with
    | ⟨0, _⟩ => rw [Dat.arrAt_in _ _ rfl, A_eq2]
    | ⟨1, _⟩ => rw [Dat.arrAt_in _ _ rfl, A_eq2]
    | ⟨2, _⟩ => rw [Dat.arrAt_in _ _ rfl, A_eq2]
    | ⟨3, _⟩ => exact absurd rfl hb
  · exact W4_of_ne m ρ c b (fun w e => h ⟨w, e⟩)

/-- The attention launch writes only its two outputs (the merged heads' source and the uncertainty). -/
theorem keep6 (c : Dev nD) (b : Ref sig .tc) (h0 : b ≠ main_v27_0) (h1 : b ≠ main_v27_1) :
    W6 m ρ c (Proc.devRef .tc b) = W5 m ρ c (Proc.devRef .tc b) := by
  by_cases h : ∃ w, Pipeline.arrRef spec3 w = b
  · obtain ⟨w, rfl⟩ := h
    rw [W6_arr]
    match w with
    | ⟨0, _⟩ => rw [Dat.arrAt_in _ _ rfl, A_eq3]
    | ⟨1, _⟩ => rw [Dat.arrAt_in _ _ rfl, A_eq3]
    | ⟨2, _⟩ => rw [Dat.arrAt_in _ _ rfl, A_eq3]
    | ⟨3, _⟩ => rw [Dat.arrAt_in _ _ rfl, A_eq3]
    | ⟨4, _⟩ => rw [Dat.arrAt_in _ _ rfl, A_eq3]
    | ⟨5, _⟩ => exact absurd rfl h0
    | ⟨6, _⟩ => exact absurd rfl h1
  · exact W6_of_ne m ρ c b (fun w e => h ⟨w, e⟩)

/-- The output projection's launch writes only its output. -/
theorem keep8 (c : Dev nD) (b : Ref sig .tc) (hb : b ≠ main_v31) :
    W8 m ρ c (Proc.devRef .tc b) = W7 m ρ c (Proc.devRef .tc b) := by
  by_cases h : ∃ w, Pipeline.arrRef spec4 w = b
  · obtain ⟨w, rfl⟩ := h
    rw [W8_arr]
    match w with
    | ⟨0, _⟩ => rw [Dat.arrAt_in _ _ rfl, A_eq4]
    | ⟨1, _⟩ => rw [Dat.arrAt_in _ _ rfl, A_eq4]
    | ⟨2, _⟩ => rw [Dat.arrAt_in _ _ rfl, A_eq4]
    | ⟨3, _⟩ => exact absurd rfl hb
  · exact W8_of_ne m ρ c b (fun w e => h ⟨w, e⟩)

/-! ## What the host operations before the first launch leave -/

/-- The input with its two leading axes flattened into rows. -/
theorem first_rows (c : Dev nD) :
    W1 m ρ c (Proc.devRef .tc main_v0)
      = shapeCast S4096x1024 (m ((c : Thread nD τ).loc main_arg0)) shapeCasts_S2x2048x1024_S4096x1024 := by
  show StableHlo.after hostOps0 _ _ = _
  after_results
  all_goals rfl

/-- The query weight transposed, in the narrower float format. -/
theorem first_wq (c : Dev nD) :
    W1 m ρ c (Proc.devRef .tc main_v2)
      = truncf .bf16 (transpose S1024x1024 [1, 0] (m ((c : Thread nD τ).loc main_arg1))
          transposes_S1024x1024_S1024x1024_1_0) bitsLt_bf16_f32 := by
  show StableHlo.after hostOps0 _ _ = _
  after_results
  all_goals rfl

/-- The key weight transposed, in the narrower float format. -/
theorem first_wk (c : Dev nD) :
    W1 m ρ c (Proc.devRef .tc main_v4)
      = truncf .bf16 (transpose S1024x1024 [1, 0] (m ((c : Thread nD τ).loc main_arg3))
          transposes_S1024x1024_S1024x1024_1_0) bitsLt_bf16_f32 := by
  show StableHlo.after hostOps0 _ _ = _
  after_results
  all_goals rfl

/-- The value weight transposed, in the narrower float format. -/
theorem first_wv (c : Dev nD) :
    W1 m ρ c (Proc.devRef .tc main_v6)
      = truncf .bf16 (transpose S1024x1024 [1, 0] (m ((c : Thread nD τ).loc main_arg5))
          transposes_S1024x1024_S1024x1024_1_0) bitsLt_bf16_f32 := by
  show StableHlo.after hostOps0 _ _ = _
  after_results
  all_goals rfl

/-- The output weight transposed, in the narrower float format. -/
theorem first_wo (c : Dev nD) :
    W1 m ρ c (Proc.devRef .tc main_v8)
      = truncf .bf16 (transpose S1024x1024 [1, 0] (m ((c : Thread nD τ).loc main_arg7))
          transposes_S1024x1024_S1024x1024_1_0) bitsLt_bf16_f32 := by
  show StableHlo.after hostOps0 _ _ = _
  after_results
  all_goals rfl

/-- The query bias as a one-row matrix. -/
theorem first_bq (c : Dev nD) :
    W1 m ρ c (Proc.devRef .tc main_v9)
      = shapeCast S1x1024 (m ((c : Thread nD τ).loc main_arg2)) shapeCasts_S1024_S1x1024 := by
  show StableHlo.after hostOps0 _ _ = _
  after_results
  all_goals rfl

/-- The key bias as a one-row matrix. -/
theorem first_bk (c : Dev nD) :
    W1 m ρ c (Proc.devRef .tc main_v10)
      = shapeCast S1x1024 (m ((c : Thread nD τ).loc main_arg4)) shapeCasts_S1024_S1x1024 := by
  show StableHlo.after hostOps0 _ _ = _
  after_results
  all_goals rfl

/-- The value bias as a one-row matrix. -/
theorem first_bv (c : Dev nD) :
    W1 m ρ c (Proc.devRef .tc main_v11)
      = shapeCast S1x1024 (m ((c : Thread nD τ).loc main_arg6)) shapeCasts_S1024_S1x1024 := by
  show StableHlo.after hostOps0 _ _ = _
  after_results
  all_goals rfl

/-- The output bias as a one-row matrix. -/
theorem first_bo (c : Dev nD) :
    W1 m ρ c (Proc.devRef .tc main_v12)
      = shapeCast S1x1024 (m ((c : Thread nD τ).loc main_arg8)) shapeCasts_S1024_S1x1024 := by
  show StableHlo.after hostOps0 _ _ = _
  after_results
  all_goals rfl

/-- The evidence scale is untouched. -/
theorem first_scale (c : Dev nD) :
    W1 m ρ c (Proc.devRef .tc main_arg9)
      = m ((c : Thread nD τ).loc main_arg9) := by
  show StableHlo.after hostOps0 _ _ = _
  after_results
  all_goals rfl

/-- The evidence offset is untouched. -/
theorem first_bias (c : Dev nD) :
    W1 m ρ c (Proc.devRef .tc main_arg10)
      = m ((c : Thread nD τ).loc main_arg10) := by
  show StableHlo.after hostOps0 _ _ = _
  after_results
  all_goals rfl

/-! ## What the host operations between the projections and the attention launch leave -/

/-- The projected queries split into heads, heads moved before positions, batch and head flattened. -/
theorem heads_q (c : Dev nD) :
    W5 m ρ c (Proc.devRef .tc main_v18)
      = shapeCast S32x2048x64 (transpose S2x16x2048x64 [0, 2, 1, 3]
          (shapeCast S2x2048x16x64 (W4 m ρ c (Proc.devRef .tc main_v13)) shapeCasts_S4096x1024_S2x2048x16x64)
          transposes_S2x2048x16x64_S2x16x2048x64_0_2_1_3) shapeCasts_S2x16x2048x64_S32x2048x64 := by
  show StableHlo.after hostOps3 _ _ = _
  after_results
  all_goals rfl

/-- The projected keys split into heads, heads moved before positions, batch and head flattened. -/
theorem heads_k (c : Dev nD) :
    W5 m ρ c (Proc.devRef .tc main_v21)
      = shapeCast S32x2048x64 (transpose S2x16x2048x64 [0, 2, 1, 3]
          (shapeCast S2x2048x16x64 (W4 m ρ c (Proc.devRef .tc main_v14)) shapeCasts_S4096x1024_S2x2048x16x64)
          transposes_S2x2048x16x64_S2x16x2048x64_0_2_1_3) shapeCasts_S2x16x2048x64_S32x2048x64 := by
  show StableHlo.after hostOps3 _ _ = _
  after_results
  all_goals rfl

/-- The projected values split into heads, heads moved before positions, batch and head flattened. -/
theorem heads_v (c : Dev nD) :
    W5 m ρ c (Proc.devRef .tc main_v24)
      = shapeCast S32x2048x64 (transpose S2x16x2048x64 [0, 2, 1, 3]
          (shapeCast S2x2048x16x64 (W4 m ρ c (Proc.devRef .tc main_v15)) shapeCasts_S4096x1024_S2x2048x16x64)
          transposes_S2x2048x16x64_S2x16x2048x64_0_2_1_3) shapeCasts_S2x16x2048x64_S32x2048x64 := by
  show StableHlo.after hostOps3 _ _ = _
  after_results
  all_goals rfl

/-- The evidence scale as a one-by-one matrix. -/
theorem scale_cell (c : Dev nD) :
    W5 m ρ c (Proc.devRef .tc main_v25)
      = shapeCast S1x1 (W4 m ρ c (Proc.devRef .tc main_arg9)) shapeCasts_S1_S1x1 := by
  show StableHlo.after hostOps3 _ _ = _
  after_results
  all_goals rfl

/-- The evidence offset as a one-by-one matrix. -/
theorem bias_cell (c : Dev nD) :
    W5 m ρ c (Proc.devRef .tc main_v26)
      = shapeCast S1x1 (W4 m ρ c (Proc.devRef .tc main_arg10)) shapeCasts_S1_S1x1 := by
  show StableHlo.after hostOps3 _ _ = _
  after_results
  all_goals rfl

/-- The output weight is untouched. -/
theorem mid_wo (c : Dev nD) :
    W5 m ρ c (Proc.devRef .tc main_v8)
      = W4 m ρ c (Proc.devRef .tc main_v8) := by
  show StableHlo.after hostOps3 _ _ = _
  after_results
  all_goals rfl

/-- The output bias is untouched. -/
theorem mid_bo (c : Dev nD) :
    W5 m ρ c (Proc.devRef .tc main_v12)
      = W4 m ρ c (Proc.devRef .tc main_v12) := by
  show StableHlo.after hostOps3 _ _ = _
  after_results
  all_goals rfl

/-! ## What the host operations between the attention launch and the output projection leave -/

/-- The attention output with batch and head separated, positions moved before heads, heads merged into features. -/
theorem merged (c : Dev nD) :
    W7 m ρ c (Proc.devRef .tc main_v30)
      = shapeCast S4096x1024 (transpose S2x2048x16x64 [0, 2, 1, 3]
          (shapeCast S2x16x2048x64 (W6 m ρ c (Proc.devRef .tc main_v27_0)) shapeCasts_S32x2048x64_S2x16x2048x64)
          transposes_S2x16x2048x64_S2x2048x16x64_0_2_1_3) shapeCasts_S2x2048x16x64_S4096x1024 := by
  show StableHlo.after hostOps4 _ _ = _
  after_results
  all_goals rfl

/-- The output weight is untouched. -/
theorem late_wo (c : Dev nD) :
    W7 m ρ c (Proc.devRef .tc main_v8)
      = W6 m ρ c (Proc.devRef .tc main_v8) := by
  show StableHlo.after hostOps4 _ _ = _
  after_results
  all_goals rfl

/-- The output bias is untouched. -/
theorem late_bo (c : Dev nD) :
    W7 m ρ c (Proc.devRef .tc main_v12)
      = W6 m ρ c (Proc.devRef .tc main_v12) := by
  show StableHlo.after hostOps4 _ _ = _
  after_results
  all_goals rfl

/-- The uncertainty is untouched. -/
theorem late_unc (c : Dev nD) :
    W7 m ρ c (Proc.devRef .tc main_v27_1)
      = W6 m ρ c (Proc.devRef .tc main_v27_1) := by
  show StableHlo.after hostOps4 _ _ = _
  after_results
  all_goals rfl

/-! ## What the last host operations leave -/

/-- The first result: the output projection's rows unflattened. -/
theorem result_out (c : Dev nD) :
    W9 m ρ c (Proc.devRef .tc main_v32)
      = shapeCast S2x2048x1024 (W8 m ρ c (Proc.devRef .tc main_v31)) shapeCasts_S4096x1024_S2x2048x1024 := by
  show StableHlo.after hostOps5 _ _ = _
  after_results
  all_goals rfl

/-- The second result: the uncertainty with batch and head separated. -/
theorem result_unc (c : Dev nD) :
    W9 m ρ c (Proc.devRef .tc main_v33)
      = shapeCast S2x16x2048 (W8 m ρ c (Proc.devRef .tc main_v27_1)) shapeCasts_S32x2048x1_S2x16x2048 := by
  show StableHlo.after hostOps5 _ _ = _
  after_results
  all_goals rfl

/-! ## Composites: buffers carried unchanged across several boundaries -/

/-- The input rows pass the first launch unchanged. -/
theorem after1_rows (c : Dev nD) : W2 m ρ c (Proc.devRef .tc main_v0) = W1 m ρ c (Proc.devRef .tc main_v0) :=
  keep2 m ρ c main_v0 (by decide)

/-- The key weight pass the first launch unchanged. -/
theorem after1_wk (c : Dev nD) : W2 m ρ c (Proc.devRef .tc main_v4) = W1 m ρ c (Proc.devRef .tc main_v4) :=
  keep2 m ρ c main_v4 (by decide)

/-- The key bias pass the first launch unchanged. -/
theorem after1_bk (c : Dev nD) : W2 m ρ c (Proc.devRef .tc main_v10) = W1 m ρ c (Proc.devRef .tc main_v10) :=
  keep2 m ρ c main_v10 (by decide)

/-- The input rows pass the first two launches unchanged. -/
theorem after2_rows (c : Dev nD) : W3 m ρ c (Proc.devRef .tc main_v0) = W1 m ρ c (Proc.devRef .tc main_v0) :=
  (keep3 m ρ c main_v0 (by decide)).trans (keep2 m ρ c main_v0 (by decide))

/-- The value weight pass the first two launches unchanged. -/
theorem after2_wv (c : Dev nD) : W3 m ρ c (Proc.devRef .tc main_v6) = W1 m ρ c (Proc.devRef .tc main_v6) :=
  (keep3 m ρ c main_v6 (by decide)).trans (keep2 m ρ c main_v6 (by decide))

/-- The value bias pass the first two launches unchanged. -/
theorem after2_bv (c : Dev nD) : W3 m ρ c (Proc.devRef .tc main_v11) = W1 m ρ c (Proc.devRef .tc main_v11) :=
  (keep3 m ρ c main_v11 (by decide)).trans (keep2 m ρ c main_v11 (by decide))

/-- The projected queries pass the second and third launches unchanged. -/
theorem q_kept (c : Dev nD) : W4 m ρ c (Proc.devRef .tc main_v13) = W2 m ρ c (Proc.devRef .tc main_v13) :=
  (keep4 m ρ c main_v13 (by decide)).trans (keep3 m ρ c main_v13 (by decide))

/-- The projected keys pass the third launch unchanged. -/
theorem k_kept (c : Dev nD) : W4 m ρ c (Proc.devRef .tc main_v14) = W3 m ρ c (Proc.devRef .tc main_v14) :=
  keep4 m ρ c main_v14 (by decide)

/-- The evidence scale is still the launch's when the projections are done. -/
theorem scale_kept (c : Dev nD) : W4 m ρ c (Proc.devRef .tc main_arg9) = m ((c : Thread nD τ).loc main_arg9) :=
  (keep4 m ρ c main_arg9 (by decide)).trans ((keep3 m ρ c main_arg9 (by decide)).trans
    ((keep2 m ρ c main_arg9 (by decide)).trans (first_scale m ρ c)))

/-- The evidence offset is still the launch's when the projections are done. -/
theorem bias_kept (c : Dev nD) : W4 m ρ c (Proc.devRef .tc main_arg10) = m ((c : Thread nD τ).loc main_arg10) :=
  (keep4 m ρ c main_arg10 (by decide)).trans ((keep3 m ρ c main_arg10 (by decide)).trans
    ((keep2 m ρ c main_arg10 (by decide)).trans (first_bias m ρ c)))

/-- The output weight reaches the output projection as the first host operations left it. -/
theorem wo_kept (c : Dev nD) : W7 m ρ c (Proc.devRef .tc main_v8) = W1 m ρ c (Proc.devRef .tc main_v8) :=
  (late_wo m ρ c).trans ((keep6 m ρ c main_v8 (by decide) (by decide)).trans ((mid_wo m ρ c).trans
    ((keep4 m ρ c main_v8 (by decide)).trans ((keep3 m ρ c main_v8 (by decide)).trans (keep2 m ρ c main_v8 (by decide))))))

/-- The output bias reaches the output projection as the first host operations left it. -/
theorem bo_kept (c : Dev nD) : W7 m ρ c (Proc.devRef .tc main_v12) = W1 m ρ c (Proc.devRef .tc main_v12) :=
  (late_bo m ρ c).trans ((keep6 m ρ c main_v12 (by decide) (by decide)).trans ((mid_bo m ρ c).trans
    ((keep4 m ρ c main_v12 (by decide)).trans ((keep3 m ρ c main_v12 (by decide)).trans (keep2 m ρ c main_v12 (by decide))))))

/-- The uncertainty passes the output projection's launch unchanged. -/
theorem unc_kept (c : Dev nD) : W8 m ρ c (Proc.devRef .tc main_v27_1) = W6 m ρ c (Proc.devRef .tc main_v27_1) :=
  (keep8 m ρ c main_v27_1 (by decide)).trans (late_unc m ρ c)

end Cert.KernelIdeal.Boundary
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.LinearBody.lean ====
/-
  One grid point of a projection kernel: a block of 512 rows times the weight matrix (laid out with the
  contracted coordinate first), plus the bias row. At the ideal values a change of float format is the
  identity, so an entry of the stored block is the row's inner product with the matrix's column, plus that
  column's bias. The four projection kernels have the same body; the last one differs only in the formats
  of what it loads and stores, which the ideal values do not see.
-/
import proofs.«163043_j63943473103359_1_alg».proof.Proof.Gen.KernelIdeal.Frame
import proofs.«163043_j63943473103359_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LinearBody

open Cert.KernelIdeal Cert.KernelIdeal.Gen Idealize.ShloMosaic Idealize.ShloMosaic.ValueIdx

theorem origin2 : (![0, 0] : Fin 2 → Nat) = fun _ => 0 := funext fun a => by fin_cases a <;> rfl

/-- Row `p` of a block of rows against column `e` of a matrix, plus the bias of column `e`. -/
def rowDot (A : S512x1024.Idx → EReal) (Wt : S1024x1024.Idx → EReal) (bias : S1x1024.Idx → EReal)
    (p : Fin 512) (e : Fin 1024) : EReal :=
  (∑ j : Fin 1024, A (ix2 p j) * Wt (ix2 j e)) + bias (ix2 (0 : Fin 1) e)

/-- The kernels' dot contracts the left operand's columns with the right operand's rows: the plain product. -/
theorem dot_plain : dot_S512x1024_S1024x1024_S512x1024_1_0_0_1_n_n = DotDims.plain 512 1024 1024 :=
  Cert.RowLib.dotDims_eq_plain _ rfl rfl rfl rfl rfl rfl

/-- Product into the zero accumulator plus the broadcast bias row, at an entry. -/
theorem product_plus_bias {φa φw : FTy} (A : FVec Ideal S512x1024 φa) (Wt : FVec Ideal S1024x1024 φw)
    (bias : FVec Ideal S1x1024 .f32) (p : Fin 512) (e : Fin 1024) :
    addf (matmul dot_S512x1024_S1024x1024_S512x1024_1_0_0_1_n_n none A Wt (constant S512x1024 .f32 0x00000000#32))
        (broadcastTo S512x1024 bias broadcasts_S1x1024_S512x1024) (ix2 p e)
      = rowDot A Wt bias p e := by
  rw [addf_apply]
  unfold rowDot
  refine congrArg₂ (· + ·) ?_ ?_
  · rw [dot_plain]
    exact Cert.RowLib.matmul_plain_zero_ix2 none A Wt p e
  · exact broadcastTo_1b_ab_apply bias broadcasts_S1x1024_S512x1024 p e

theorem pay0 (x0 : Vec Ideal S512x1024 .f32) (x1 : Vec Ideal S1024x1024 .bf16) (x2 : Vec Ideal S1x1024 .f32)
    (p : Fin 512) (e : Fin 1024) : k0_pay1 x0 x1 x2 (ix2 p e) = rowDot x0 x1 x2 p e := by
  unfold k0_pay1
  simp only [shapeCast_self]
  exact product_plus_bias x0 x1 x2 p e

theorem pay1 (x0 : Vec Ideal S512x1024 .f32) (x1 : Vec Ideal S1024x1024 .bf16) (x2 : Vec Ideal S1x1024 .f32)
    (p : Fin 512) (e : Fin 1024) : k1_pay1 x0 x1 x2 (ix2 p e) = rowDot x0 x1 x2 p e := by
  unfold k1_pay1
  simp only [shapeCast_self]
  exact product_plus_bias x0 x1 x2 p e

theorem pay2 (x0 : Vec Ideal S512x1024 .f32) (x1 : Vec Ideal S1024x1024 .bf16) (x2 : Vec Ideal S1x1024 .f32)
    (p : Fin 512) (e : Fin 1024) : k2_pay1 x0 x1 x2 (ix2 p e) = rowDot x0 x1 x2 p e := by
  unfold k2_pay1
  simp only [shapeCast_self]
  exact product_plus_bias x0 x1 x2 p e

theorem pay4 (x0 : Vec Ideal S512x1024 .bf16) (x1 : Vec Ideal S1024x1024 .bf16) (x2 : Vec Ideal S1x1024 .f32)
    (p : Fin 512) (e : Fin 1024) : k4_pay1 x0 x1 x2 (ix2 p e) = rowDot x0 x1 x2 p e := by
  unfold k4_pay1
  simp only [shapeCast_self]
  exact product_plus_bias x0 x1 x2 p e

/-- What a projection kernel leaves in its output block, at an entry: its one store covers the block. -/
theorem out0 (x0 : Vec Ideal S512x1024 .f32) (x1 : Vec Ideal S1024x1024 .bf16) (x2 : Vec Ideal S1x1024 .f32)
    (p : Fin 512) (e : Fin 1024) : out0_3 x0 x1 x2 (ix2 p e) = rowDot x0 x1 x2 p e := by
  unfold out0_3
  rw [View.canon_unit_zero origin2]
  simp only [View.ld_unit_zero (S := S512x1024) origin2, View.ld_unit_zero (S := S1024x1024) origin2,
    View.ld_unit_zero (S := S1x1024) origin2]
  exact pay0 x0 x1 x2 p e

theorem out1 (x0 : Vec Ideal S512x1024 .f32) (x1 : Vec Ideal S1024x1024 .bf16) (x2 : Vec Ideal S1x1024 .f32)
    (p : Fin 512) (e : Fin 1024) : out1_3 x0 x1 x2 (ix2 p e) = rowDot x0 x1 x2 p e := by
  unfold out1_3
  rw [View.canon_unit_zero origin2]
  simp only [View.ld_unit_zero (S := S512x1024) origin2, View.ld_unit_zero (S := S1024x1024) origin2,
    View.ld_unit_zero (S := S1x1024) origin2]
  exact pay1 x0 x1 x2 p e

theorem out2 (x0 : Vec Ideal S512x1024 .f32) (x1 : Vec Ideal S1024x1024 .bf16) (x2 : Vec Ideal S1x1024 .f32)
    (p : Fin 512) (e : Fin 1024) : out2_3 x0 x1 x2 (ix2 p e) = rowDot x0 x1 x2 p e := by
  unfold out2_3
  rw [View.canon_unit_zero origin2]
  simp only [View.ld_unit_zero (S := S512x1024) origin2, View.ld_unit_zero (S := S1024x1024) origin2,
    View.ld_unit_zero (S := S1x1024) origin2]
  exact pay2 x0 x1 x2 p e

theorem out4 (x0 : Vec Ideal S512x1024 .bf16) (x1 : Vec Ideal S1024x1024 .bf16) (x2 : Vec Ideal S1x1024 .f32)
    (p : Fin 512) (e : Fin 1024) : out4_3 x0 x1 x2 (ix2 p e) = rowDot x0 x1 x2 p e := by
  unfold out4_3
  rw [View.canon_unit_zero origin2]
  simp only [View.ld_unit_zero (S := S512x1024) origin2, View.ld_unit_zero (S := S1024x1024) origin2,
    View.ld_unit_zero (S := S1x1024) origin2]
  exact pay4 x0 x1 x2 p e

end Cert.KernelIdeal.LinearBody

end
-- ==== Proof.Rows.lean ====
/-
  The four projection launches, from blocks to arrays.

  A projection launch has eight grid points. Point `t` reads rows 512·t … 512·t + 511 of the left array, the
  whole weight matrix and the whole bias row, and writes back rows 512·t … of its output. What it writes is
  the body's block (LinearBody): each of its rows against every column of the matrix, plus the bias. A row of
  the output depends on that row of the left array alone, so block `t` of the output is block `t` of ONE
  whole-array function, the rows-times-matrix-plus-bias product; the eight blocks tile the 4096 rows, so after
  the launch the output array is that function of the arrays the launch was entered with.
-/
import proofs.«163043_j63943473103359_1_alg».proof.Proof.Gen.KernelIdeal.Frame
import proofs.«163043_j63943473103359_1_alg».proof.Proof.LinearBody
import Idealize.ShloMosaic.Lib.Pipeline.Value
import Idealize.ShloMosaic.Lib.ValueIdx

set_option maxRecDepth 16384

noncomputable section

namespace Cert.KernelIdeal.Rows

open Cert.KernelIdeal Cert.KernelIdeal.Gen Idealize.ShloMosaic Idealize.ShloMosaic.TcCoe Idealize.SL.Sem Idealize.ShloMosaic.ValueIdx

/-- Rows of a [4096, 1024] array times a [1024, 1024] matrix (contracted coordinate first) plus a [1, 1024]
    bias row: entry (r, e) is the inner product of row r with column e, plus the bias of column e. -/
def rowsDot (A : S4096x1024.Idx → EReal) (Wt : S1024x1024.Idx → EReal) (bias : S1x1024.Idx → EReal) : S4096x1024.Idx → EReal :=
  fun i => (∑ j : Fin 1024, A (ix2 (i 0) j) * Wt (ix2 j (i 1))) + bias (ix2 (0 : Fin 1) (i 1))

variable (V : (c : Dev nD) → (b : Ref sig .tc) → Buf (Elt Ideal) ((c : Thread nD τ).loc b))

/-! ## Launch 0: its output array is the whole product -/

/-- The printed index maps over the eight grid points: the row block moves with the point, every other block
    index is zero. -/
theorem idx0 : ∀ t : Fin cfg0.N, win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every one of the eight row blocks is some point's. -/
theorem onto0 : ∀ q : Fin 8, ∃ t : Fin cfg0.N, win0_3.index t = ![q.val, 0] :=
  (by decide +kernel : ∀ q : Fin 8, ∃ t : Fin grid0.N, win0_3.index t = ![q.val, 0])

/-- What point `t` writes back is block `t` of the whole product: its 512 rows of the left array against the
    whole matrix, plus the bias row. -/
theorem flushed0 (c : Dev nD) (t : Fin cfg0.N) :
    (dat0 V c).flushed 3 t
      = ((cfg0.win 3).blk t).view.read (Elt Ideal) (rowsDot (V c main_v0) (V c main_v2) (V c main_v9)) := by
  show (cfg0.win 3).cut (grid0.coords t) ((dat0 V c).after 3 t) = _
  rw [after0_3]
  obtain ⟨e00, e01, e10, e11, e20, e21, e31, -⟩ := idx0 t
  funext y
  obtain ⟨p, e, rfl⟩ : ∃ (p : Fin 512) (e : Fin 1024), y = ix2 p e := ⟨y 0, y 1, eq_ix2 y⟩
  refine (LinearBody.out0 _ _ _ p e).trans ?_
  unfold LinearBody.rowDot
  let A : S4096x1024.Idx → EReal := V c main_v0
  let Wt : S1024x1024.Idx → EReal := V c main_v2
  let bias : S1x1024.Idx → EReal := V c main_v9
  show (∑ j : Fin 1024, A (((cfg0.win 0).blk t).view.emb (ix2 p j)) * Wt (((cfg0.win 1).blk t).view.emb (ix2 j e)))
        + bias (((cfg0.win 2).blk t).view.emb (ix2 (0 : Fin 1) e))
      = rowsDot A Wt bias (((cfg0.win 3).blk t).view.emb (ix2 p e))
  unfold rowsDot
  have hrow : ∀ j : Fin 1024, ((cfg0.win 0).blk t).view.emb (ix2 p j)
      = ix2 ((((cfg0.win 3).blk t).view.emb (ix2 p e)) 0) j := by
    intro j; funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 1024 + 1 * j.val = j.val; omega
  have hcol : ∀ j : Fin 1024, ((cfg0.win 1).blk t).view.emb (ix2 j e)
      = ix2 j ((((cfg0.win 3).blk t).view.emb (ix2 p e)) 1) := by
    intro j; funext a; apply Fin.ext
    match a with
    | ⟨0, _⟩ => show win0_1.index t (0 : Fin 2) * 1024 + 1 * j.val = j.val; omega
    | ⟨1, _⟩ => show win0_1.index t (1 : Fin 2) * 1024 + 1 * e.val = win0_3.index t (1 : Fin 2) * 1024 + 1 * e.val; omega
  have hbias : ((cfg0.win 2).blk t).view.emb (ix2 (0 : Fin 1) e)
      = ix2 (0 : Fin 1) ((((cfg0.win 3).blk t).view.emb (ix2 p e)) 1) := by
    funext a; apply Fin.ext
    match a with
    | ⟨0, _⟩ => show win0_2.index t (0 : Fin 2) * 1 + 1 * 0 = 0; omega
    | ⟨1, _⟩ => show win0_2.index t (1 : Fin 2) * 1024 + 1 * e.val = win0_3.index t (1 : Fin 2) * 1024 + 1 * e.val; omega
  refine congrArg₂ (· + ·) (Finset.sum_congr rfl fun j _ => ?_) ?_
  · exact congrArg₂ (· * ·) (congrArg A (hrow j)) (congrArg Wt (hcol j))
  · exact congrArg bias hbias

/-- An index of the output array is in point `t`'s block iff each coordinate is in the block's range. -/
theorem mem_blk0 (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v13).slice (win0_3.rect t)).set ↔ _
  rw [View.set_slice_whole, Rect.mem_set_unit]
  exact Iff.rfl

/-- The eight row blocks tile the array: row `r` is in block `r / 512`. -/
theorem cover0 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- After the launch its output array is the whole product of the arrays it was entered with. -/
theorem array0 (c : Dev nD) :
    (dat0 V c).arrAt 3 cfg0.N = rowsDot (V c main_v0) (V c main_v2) (V c main_v9) :=
  (dat0 V c).arrAt_eq_of_cover 3 _ (fun t _ => flushed0 V c t) (cover0)

/-! ## Launch 1: its output array is the whole product -/

/-- The printed index maps over the eight grid points: the row block moves with the point, every other block
    index is zero. -/
theorem idx1 : ∀ t : Fin cfg1.N, win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every one of the eight row blocks is some point's. -/
theorem onto1 : ∀ q : Fin 8, ∃ t : Fin cfg1.N, win1_3.index t = ![q.val, 0] :=
  (by decide +kernel : ∀ q : Fin 8, ∃ t : Fin grid1.N, win1_3.index t = ![q.val, 0])

/-- What point `t` writes back is block `t` of the whole product: its 512 rows of the left array against the
    whole matrix, plus the bias row. -/
theorem flushed1 (c : Dev nD) (t : Fin cfg1.N) :
    (dat1 V c).flushed 3 t
      = ((cfg1.win 3).blk t).view.read (Elt Ideal) (rowsDot (V c main_v0) (V c main_v4) (V c main_v10)) := by
  show (cfg1.win 3).cut (grid1.coords t) ((dat1 V c).after 3 t) = _
  rw [after1_3]
  obtain ⟨e00, e01, e10, e11, e20, e21, e31, -⟩ := idx1 t
  funext y
  obtain ⟨p, e, rfl⟩ : ∃ (p : Fin 512) (e : Fin 1024), y = ix2 p e := ⟨y 0, y 1, eq_ix2 y⟩
  refine (LinearBody.out1 _ _ _ p e).trans ?_
  unfold LinearBody.rowDot
  let A : S4096x1024.Idx → EReal := V c main_v0
  let Wt : S1024x1024.Idx → EReal := V c main_v4
  let bias : S1x1024.Idx → EReal := V c main_v10
  show (∑ j : Fin 1024, A (((cfg1.win 0).blk t).view.emb (ix2 p j)) * Wt (((cfg1.win 1).blk t).view.emb (ix2 j e)))
        + bias (((cfg1.win 2).blk t).view.emb (ix2 (0 : Fin 1) e))
      = rowsDot A Wt bias (((cfg1.win 3).blk t).view.emb (ix2 p e))
  unfold rowsDot
  have hrow : ∀ j : Fin 1024, ((cfg1.win 0).blk t).view.emb (ix2 p j)
      = ix2 ((((cfg1.win 3).blk t).view.emb (ix2 p e)) 0) j := by
    intro j; funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 1024 + 1 * j.val = j.val; omega
  have hcol : ∀ j : Fin 1024, ((cfg1.win 1).blk t).view.emb (ix2 j e)
      = ix2 j ((((cfg1.win 3).blk t).view.emb (ix2 p e)) 1) := by
    intro j; funext a; apply Fin.ext
    match a with
    | ⟨0, _⟩ => show win1_1.index t (0 : Fin 2) * 1024 + 1 * j.val = j.val; omega
    | ⟨1, _⟩ => show win1_1.index t (1 : Fin 2) * 1024 + 1 * e.val = win1_3.index t (1 : Fin 2) * 1024 + 1 * e.val; omega
  have hbias : ((cfg1.win 2).blk t).view.emb (ix2 (0 : Fin 1) e)
      = ix2 (0 : Fin 1) ((((cfg1.win 3).blk t).view.emb (ix2 p e)) 1) := by
    funext a; apply Fin.ext
    match a with
    | ⟨0, _⟩ => show win1_2.index t (0 : Fin 2) * 1 + 1 * 0 = 0; omega
    | ⟨1, _⟩ => show win1_2.index t (1 : Fin 2) * 1024 + 1 * e.val = win1_3.index t (1 : Fin 2) * 1024 + 1 * e.val; omega
  refine congrArg₂ (· + ·) (Finset.sum_congr rfl fun j _ => ?_) ?_
  · exact congrArg₂ (· * ·) (congrArg A (hrow j)) (congrArg Wt (hcol j))
  · exact congrArg bias hbias

/-- An index of the output array is in point `t`'s block iff each coordinate is in the block's range. -/
theorem mem_blk1 (t : Fin cfg1.N) (i : S4096x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v14).slice (win1_3.rect t)).set ↔ _
  rw [View.set_slice_whole, Rect.mem_set_unit]
  exact Iff.rfl

/-- The eight row blocks tile the array: row `r` is in block `r / 512`. -/
theorem cover1 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := onto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- After the launch its output array is the whole product of the arrays it was entered with. -/
theorem array1 (c : Dev nD) :
    (dat1 V c).arrAt 3 cfg1.N = rowsDot (V c main_v0) (V c main_v4) (V c main_v10) :=
  (dat1 V c).arrAt_eq_of_cover 3 _ (fun t _ => flushed1 V c t) (cover1)

/-! ## Launch 2: its output array is the whole product -/

/-- The printed index maps over the eight grid points: the row block moves with the point, every other block
    index is zero. -/
theorem idx2 : ∀ t : Fin cfg2.N, win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every one of the eight row blocks is some point's. -/
theorem onto2 : ∀ q : Fin 8, ∃ t : Fin cfg2.N, win2_3.index t = ![q.val, 0] :=
  (by decide +kernel : ∀ q : Fin 8, ∃ t : Fin grid2.N, win2_3.index t = ![q.val, 0])

/-- What point `t` writes back is block `t` of the whole product: its 512 rows of the left array against the
    whole matrix, plus the bias row. -/
theorem flushed2 (c : Dev nD) (t : Fin cfg2.N) :
    (dat2 V c).flushed 3 t
      = ((cfg2.win 3).blk t).view.read (Elt Ideal) (rowsDot (V c main_v0) (V c main_v6) (V c main_v11)) := by
  show (cfg2.win 3).cut (grid2.coords t) ((dat2 V c).after 3 t) = _
  rw [after2_3]
  obtain ⟨e00, e01, e10, e11, e20, e21, e31, -⟩ := idx2 t
  funext y
  obtain ⟨p, e, rfl⟩ : ∃ (p : Fin 512) (e : Fin 1024), y = ix2 p e := ⟨y 0, y 1, eq_ix2 y⟩
  refine (LinearBody.out2 _ _ _ p e).trans ?_
  unfold LinearBody.rowDot
  let A : S4096x1024.Idx → EReal := V c main_v0
  let Wt : S1024x1024.Idx → EReal := V c main_v6
  let bias : S1x1024.Idx → EReal := V c main_v11
  show (∑ j : Fin 1024, A (((cfg2.win 0).blk t).view.emb (ix2 p j)) * Wt (((cfg2.win 1).blk t).view.emb (ix2 j e)))
        + bias (((cfg2.win 2).blk t).view.emb (ix2 (0 : Fin 1) e))
      = rowsDot A Wt bias (((cfg2.win 3).blk t).view.emb (ix2 p e))
  unfold rowsDot
  have hrow : ∀ j : Fin 1024, ((cfg2.win 0).blk t).view.emb (ix2 p j)
      = ix2 ((((cfg2.win 3).blk t).view.emb (ix2 p e)) 0) j := by
    intro j; funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 1024 + 1 * j.val = j.val; omega
  have hcol : ∀ j : Fin 1024, ((cfg2.win 1).blk t).view.emb (ix2 j e)
      = ix2 j ((((cfg2.win 3).blk t).view.emb (ix2 p e)) 1) := by
    intro j; funext a; apply Fin.ext
    match a with
    | ⟨0, _⟩ => show win2_1.index t (0 : Fin 2) * 1024 + 1 * j.val = j.val; omega
    | ⟨1, _⟩ => show win2_1.index t (1 : Fin 2) * 1024 + 1 * e.val = win2_3.index t (1 : Fin 2) * 1024 + 1 * e.val; omega
  have hbias : ((cfg2.win 2).blk t).view.emb (ix2 (0 : Fin 1) e)
      = ix2 (0 : Fin 1) ((((cfg2.win 3).blk t).view.emb (ix2 p e)) 1) := by
    funext a; apply Fin.ext
    match a with
    | ⟨0, _⟩ => show win2_2.index t (0 : Fin 2) * 1 + 1 * 0 = 0; omega
    | ⟨1, _⟩ => show win2_2.index t (1 : Fin 2) * 1024 + 1 * e.val = win2_3.index t (1 : Fin 2) * 1024 + 1 * e.val; omega
  refine congrArg₂ (· + ·) (Finset.sum_congr rfl fun j _ => ?_) ?_
  · exact congrArg₂ (· * ·) (congrArg A (hrow j)) (congrArg Wt (hcol j))
  · exact congrArg bias hbias

/-- An index of the output array is in point `t`'s block iff each coordinate is in the block's range. -/
theorem mem_blk2 (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v15).slice (win2_3.rect t)).set ↔ _
  rw [View.set_slice_whole, Rect.mem_set_unit]
  exact Iff.rfl

/-- The eight row blocks tile the array: row `r` is in block `r / 512`. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := onto2 ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- After the launch its output array is the whole product of the arrays it was entered with. -/
theorem array2 (c : Dev nD) :
    (dat2 V c).arrAt 3 cfg2.N = rowsDot (V c main_v0) (V c main_v6) (V c main_v11) :=
  (dat2 V c).arrAt_eq_of_cover 3 _ (fun t _ => flushed2 V c t) (cover2)

/-! ## Launch 4: its output array is the whole product -/

/-- The printed index maps over the eight grid points: the row block moves with the point, every other block
    index is zero. -/
theorem idx4 : ∀ t : Fin cfg4.N, win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 7 :=
  (by decide +kernel : ∀ t : Fin grid4.N, _)

/-- Every one of the eight row blocks is some point's. -/
theorem onto4 : ∀ q : Fin 8, ∃ t : Fin cfg4.N, win4_3.index t = ![q.val, 0] :=
  (by decide +kernel : ∀ q : Fin 8, ∃ t : Fin grid4.N, win4_3.index t = ![q.val, 0])

/-- What point `t` writes back is block `t` of the whole product: its 512 rows of the left array against the
    whole matrix, plus the bias row. -/
theorem flushed4 (c : Dev nD) (t : Fin cfg4.N) :
    (dat4 V c).flushed 3 t
      = ((cfg4.win 3).blk t).view.read (Elt Ideal) (rowsDot (V c main_v30) (V c main_v8) (V c main_v12)) := by
  show (cfg4.win 3).cut (grid4.coords t) ((dat4 V c).after 3 t) = _
  rw [after4_3]
  obtain ⟨e00, e01, e10, e11, e20, e21, e31, -⟩ := idx4 t
  funext y
  obtain ⟨p, e, rfl⟩ : ∃ (p : Fin 512) (e : Fin 1024), y = ix2 p e := ⟨y 0, y 1, eq_ix2 y⟩
  refine (LinearBody.out4 _ _ _ p e).trans ?_
  unfold LinearBody.rowDot
  let A : S4096x1024.Idx → EReal := V c main_v30
  let Wt : S1024x1024.Idx → EReal := V c main_v8
  let bias : S1x1024.Idx → EReal := V c main_v12
  show (∑ j : Fin 1024, A (((cfg4.win 0).blk t).view.emb (ix2 p j)) * Wt (((cfg4.win 1).blk t).view.emb (ix2 j e)))
        + bias (((cfg4.win 2).blk t).view.emb (ix2 (0 : Fin 1) e))
      = rowsDot A Wt bias (((cfg4.win 3).blk t).view.emb (ix2 p e))
  unfold rowsDot
  have hrow : ∀ j : Fin 1024, ((cfg4.win 0).blk t).view.emb (ix2 p j)
      = ix2 ((((cfg4.win 3).blk t).view.emb (ix2 p e)) 0) j := by
    intro j; funext a; apply Fin.ext
    match a with
    | ⟨0, _⟩ => show win4_0.index t (0 : Fin 2) * 512 + 1 * p.val = win4_3.index t (0 : Fin 2) * 512 + 1 * p.val; omega
    | ⟨1, _⟩ => show win4_0.index t (1 : Fin 2) * 1024 + 1 * j.val = j.val; omega
  have hcol : ∀ j : Fin 1024, ((cfg4.win 1).blk t).view.emb (ix2 j e)
      = ix2 j ((((cfg4.win 3).blk t).view.emb (ix2 p e)) 1) := by
    intro j; funext a; apply Fin.ext
    match a with
    | ⟨0, _⟩ => show win4_1.index t (0 : Fin 2) * 1024 + 1 * j.val = j.val; omega
    | ⟨1, _⟩ => show win4_1.index t (1 : Fin 2) * 1024 + 1 * e.val = win4_3.index t (1 : Fin 2) * 1024 + 1 * e.val; omega
  have hbias : ((cfg4.win 2).blk t).view.emb (ix2 (0 : Fin 1) e)
      = ix2 (0 : Fin 1) ((((cfg4.win 3).blk t).view.emb (ix2 p e)) 1) := by
    funext a; apply Fin.ext
    match a with
    | ⟨0, _⟩ => show win4_2.index t (0 : Fin 2) * 1 + 1 * 0 = 0; omega
    | ⟨1, _⟩ => show win4_2.index t (1 : Fin 2) * 1024 + 1 * e.val = win4_3.index t (1 : Fin 2) * 1024 + 1 * e.val; omega
  refine congrArg₂ (· + ·) (Finset.sum_congr rfl fun j _ => ?_) ?_
  · exact congrArg₂ (· * ·) (congrArg A (hrow j)) (congrArg Wt (hcol j))
  · exact congrArg bias hbias

/-- An index of the output array is in point `t`'s block iff each coordinate is in the block's range. -/
theorem mem_blk4 (t : Fin cfg4.N) (i : S4096x1024.Idx) :
    i ∈ ((cfg4.win 3).blk t).view.set ↔ ∀ a : Fin 2, win4_3.index t a * S512x1024.size a ≤ (i a).val
      ∧ (i a).val < win4_3.index t a * S512x1024.size a + S512x1024.size a := by
  show i ∈ ((View.whole main_v31).slice (win4_3.rect t)).set ↔ _
  rw [View.set_slice_whole, Rect.mem_set_unit]
  exact Iff.rfl

/-- The eight row blocks tile the array: row `r` is in block `r / 512`. -/
theorem cover4 (i : S4096x1024.Idx) :
    ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, ht⟩ := onto4 ⟨(i 0).val / 512, by omega⟩
  have q0 : win4_3.index t (0 : Fin 2) = (i 0).val / 512 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- After the launch its output array is the whole product of the arrays it was entered with. -/
theorem array4 (c : Dev nD) :
    (dat4 V c).arrAt 3 cfg4.N = rowsDot (V c main_v30) (V c main_v8) (V c main_v12) :=
  (dat4 V c).arrAt_eq_of_cover 3 _ (fun t _ => flushed4 V c t) (cover4)

end Cert.KernelIdeal.Rows

end
-- ==== Proof.Entered.lean ====
/-
  The idealized kernel's buffers when the attention launch is entered, as functions of the arguments.

  Each of the three projection launches leaves in its output array the rows of x (flattened to [4096, 1024])
  times its weight matrix transposed, plus its bias row; the host operations between the launches split the
  1024 columns into 16 heads of 64 and bring the head index in front of the row index. The two scalars are
  recast to [1, 1] cells. No launch or host operation in between touches a buffer it does not write.
-/
import proofs.«163043_j63943473103359_1_alg».proof.Proof.Boundary
import proofs.«163043_j63943473103359_1_alg».proof.Proof.Rows

set_option maxRecDepth 16384

noncomputable section

namespace Cert.KernelIdeal.Entered

open Cert.KernelIdeal Cert.KernelIdeal.Gen Idealize.ShloMosaic Idealize.ShloMosaic.TcCoe Idealize.SL.Sem

/-- x flattened to rows. -/
def rows (x : S2x2048x1024.Idx → EReal) : S4096x1024.Idx → EReal :=
  shapeCast S4096x1024 x shapeCasts_S2x2048x1024_S4096x1024
/-- A weight matrix transposed (the change of format is the identity at the ideal values). -/
def weightT (w : S1024x1024.Idx → EReal) : S1024x1024.Idx → EReal :=
  (truncf .bf16 (transpose S1024x1024 [1, 0] (w : FVec Ideal S1024x1024 .f32) transposes_S1024x1024_S1024x1024_1_0) bitsLt_bf16_f32 : FVec Ideal S1024x1024 .bf16)
/-- A bias vector as a one-row array. -/
def biasRow (b : S1024.Idx → EReal) : S1x1024.Idx → EReal := shapeCast S1x1024 b shapeCasts_S1024_S1x1024
/-- A one-element vector as a [1, 1] cell. -/
def cell (x : S1.Idx → EReal) : S1x1.Idx → EReal := shapeCast S1x1 x shapeCasts_S1_S1x1
/-- A projection of the flattened rows. -/
def proj (x : S2x2048x1024.Idx → EReal) (w : S1024x1024.Idx → EReal) (b : S1024.Idx → EReal) : S4096x1024.Idx → EReal :=
  Rows.rowsDot (rows x) (weightT w) (biasRow b)
/-- The columns split into heads, the head index brought in front of the row index. -/
def heads (X : S4096x1024.Idx → EReal) : S32x2048x64.Idx → EReal :=
  shapeCast S32x2048x64 (transpose S2x16x2048x64 [0, 2, 1, 3] (shapeCast S2x2048x16x64 X shapeCasts_S4096x1024_S2x2048x16x64)
    transposes_S2x2048x16x64_S2x16x2048x64_0_2_1_3) shapeCasts_S2x16x2048x64_S32x2048x64

variable (m : (ℓ : Loc nD τ sig) → Buf (Elt Ideal) ℓ) (ρ : Dev nD → PrngReg) (c : Dev nD)

/-- After the first launch its output holds the query projection. -/
theorem q_array : W4 m ρ c (Proc.devRef .tc main_v13) = proj (m ((c : Thread nD τ).loc main_arg0)) (m ((c : Thread nD τ).loc main_arg1)) (m ((c : Thread nD τ).loc main_arg2)) := by
  rw [Boundary.q_kept]
  refine (W2_arr m ρ c 3).trans ?_
  rw [Rows.array0 (V1 m ρ) c]
  show Rows.rowsDot (W1 m ρ c (Proc.devRef .tc main_v0)) (W1 m ρ c (Proc.devRef .tc main_v2)) (W1 m ρ c (Proc.devRef .tc main_v9)) = _
  rw [Boundary.first_rows, Boundary.first_wq, Boundary.first_bq]
  rfl

/-- After the second launch its output holds the key projection. -/
theorem k_array : W4 m ρ c (Proc.devRef .tc main_v14) = proj (m ((c : Thread nD τ).loc main_arg0)) (m ((c : Thread nD τ).loc main_arg3)) (m ((c : Thread nD τ).loc main_arg4)) := by
  rw [Boundary.k_kept]
  refine (W3_arr m ρ c 3).trans ?_
  rw [Rows.array1 (V2 m ρ) c]
  show Rows.rowsDot (W2 m ρ c (Proc.devRef .tc main_v0)) (W2 m ρ c (Proc.devRef .tc main_v4)) (W2 m ρ c (Proc.devRef .tc main_v10)) = _
  rw [Boundary.after1_rows, Boundary.after1_wk, Boundary.after1_bk, Boundary.first_rows, Boundary.first_wk, Boundary.first_bk]
  rfl

/-- After the third launch its output holds the value projection. -/
theorem v_array : W4 m ρ c (Proc.devRef .tc main_v15) = proj (m ((c : Thread nD τ).loc main_arg0)) (m ((c : Thread nD τ).loc main_arg5)) (m ((c : Thread nD τ).loc main_arg6)) := by
  refine (W4_arr m ρ c 3).trans ?_
  rw [Rows.array2 (V3 m ρ) c]
  show Rows.rowsDot (W3 m ρ c (Proc.devRef .tc main_v0)) (W3 m ρ c (Proc.devRef .tc main_v6)) (W3 m ρ c (Proc.devRef .tc main_v11)) = _
  rw [Boundary.after2_rows, Boundary.after2_wv, Boundary.after2_bv, Boundary.first_rows, Boundary.first_wv, Boundary.first_bv]
  rfl

/-- The attention launch's five input arrays as it finds them. -/
theorem q_heads : W5 m ρ c (Proc.devRef .tc main_v18) = heads (proj (m ((c : Thread nD τ).loc main_arg0)) (m ((c : Thread nD τ).loc main_arg1)) (m ((c : Thread nD τ).loc main_arg2))) := by
  rw [Boundary.heads_q, q_array]; rfl
theorem k_heads : W5 m ρ c (Proc.devRef .tc main_v21) = heads (proj (m ((c : Thread nD τ).loc main_arg0)) (m ((c : Thread nD τ).loc main_arg3)) (m ((c : Thread nD τ).loc main_arg4))) := by
  rw [Boundary.heads_k, k_array]; rfl
theorem v_heads : W5 m ρ c (Proc.devRef .tc main_v24) = heads (proj (m ((c : Thread nD τ).loc main_arg0)) (m ((c : Thread nD τ).loc main_arg5)) (m ((c : Thread nD τ).loc main_arg6))) := by
  rw [Boundary.heads_v, v_array]; rfl
theorem scale_cell : W5 m ρ c (Proc.devRef .tc main_v25) = cell (m ((c : Thread nD τ).loc main_arg9)) := by
  rw [Boundary.scale_cell, Boundary.scale_kept]; rfl
theorem bias_cell : W5 m ρ c (Proc.devRef .tc main_v26) = cell (m ((c : Thread nD τ).loc main_arg10)) := by
  rw [Boundary.bias_cell, Boundary.bias_kept]; rfl

end Cert.KernelIdeal.Entered

end
-- ==== Proof.LibColumn.lean ====
/-
  A column of row values laid out for a `keepdims` sum: a vector of `a` values recast as an `[a, 1]` column, and such a
  column broadcast along its unit axis to an `[a, b]` matrix — each read at an index given by its coordinates. (The
  companion row forms, `[a] → [1, a]` and `[1, b] → [a, b]`, are in the library.)
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.AttnBody.lean ====
/-
  One grid point of the attention kernel, read element by element at the ideal values. The point holds a block of
  queries, a block of keys, a block of values and two scalars (a scale and a bias). For a query row and a key row the
  EVIDENCE is the exponential of the scaled inner product of the two rows, times the scale scalar, plus one, plus the
  bias scalar; a row's TOTAL is the sum of its evidence over the key rows. The first output block is the evidence,
  each row divided by its total, multiplied into the values; the second is the number of key rows over the row's total.
-/
import proofs.«163043_j63943473103359_1_alg».proof.Proof.Gen.KernelIdeal.Frame
import proofs.«163043_j63943473103359_1_alg».proof.Proof.LibRowOps
import proofs.«163043_j63943473103359_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.AttnBody

open Idealize.ShloMosaic Idealize.ShloMosaic.TcCoe Idealize.SL.Sem
open Cert.KernelIdeal Cert.KernelIdeal.Gen Idealize.ShloMosaic.ValueIdx

/-! ## The mathematics -/

/-- The evidence of query row p for key row kk: exp(⟨q_p, k_kk⟩ · 1/8) · sc + 1 + bi. -/
def evid (sc bi : EReal) (q : S1x1024x64.Idx → EReal) (k : S1x2048x64.Idx → EReal) (p : Fin 1024) (kk : Fin 2048) : EReal :=
  Ideal.exp ((∑ d : Fin 64, q (ix3 0 p d) * k (ix3 0 kk d)) * Ideal.ofBits .f32 0x3E000000#32) * sc
    + Ideal.ofBits .f32 0x3F800000#32 + bi

/-- The total evidence of query row p over all the key rows. -/
def rowTotal (sc bi : EReal) (q : S1x1024x64.Idx → EReal) (k : S1x2048x64.Idx → EReal) (p : Fin 1024) : EReal :=
  ∑ kk : Fin 2048, evid sc bi q k p kk

/-! ## Zero offsets, however spelt -/

theorem zeros3 : (![0, 0, 0] : Fin 3 → Nat) = fun _ => 0 := funext fun a => by fin_cases a <;> rfl
theorem zeros2 : (![0, 0] : Fin 2 → Nat) = fun _ => 0 := funext fun a => by fin_cases a <;> rfl

/-- The one entry of a [1,1] block, extracted at position (0,0). -/
theorem extract_scalar (v : Vec Ideal S1x1 .f32) (h : ∀ a, (![0, 0] : Fin 2 → Nat) a < S1x1.size a) :
    extractAt ![0, 0] v h = v (ix2 0 0) :=
  congrArg v (funext fun a => Fin.ext (by match a with | ⟨0, _⟩ => rfl | ⟨1, _⟩ => rfl))

/-! ## The two products -/

theorem qk_lhs0 (i : S1024x2048.Idx) (c : dot_S1024x64_S2048x64_S1024x2048_1_1_0_0_n_n.contr.Idx) :
    (dot_S1024x64_S2048x64_S1024x2048_1_1_0_0_n_n.lhsIdx i c 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem qk_lhs1 (i : S1024x2048.Idx) (c : dot_S1024x64_S2048x64_S1024x2048_1_1_0_0_n_n.contr.Idx) :
    (dot_S1024x64_S2048x64_S1024x2048_1_1_0_0_n_n.lhsIdx i c 1).val = (c ⟨0, by decide⟩).val :=
  dot_S1024x64_S2048x64_S1024x2048_1_1_0_0_n_n.lhsIdx_val_of_single rfl i c
theorem qk_rhs0 (i : S1024x2048.Idx) (c : dot_S1024x64_S2048x64_S1024x2048_1_1_0_0_n_n.contr.Idx) :
    (dot_S1024x64_S2048x64_S1024x2048_1_1_0_0_n_n.rhsIdx i c 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem qk_rhs1 (i : S1024x2048.Idx) (c : dot_S1024x64_S2048x64_S1024x2048_1_1_0_0_n_n.contr.Idx) :
    (dot_S1024x64_S2048x64_S1024x2048_1_1_0_0_n_n.rhsIdx i c 1).val = (c ⟨0, by decide⟩).val :=
  dot_S1024x64_S2048x64_S1024x2048_1_1_0_0_n_n.rhsIdx_val_of_single rfl i c

/-- Queries against keys, both contracted along their feature axis, accumulated into zero: at (p, kk) the inner product
    of query row p and key row kk. -/
theorem qk_apply (Q : FVec Ideal S1024x64 .bf16) (K : FVec Ideal S2048x64 .bf16) (p : Fin 1024) (kk : Fin 2048) :
    matmul dot_S1024x64_S2048x64_S1024x2048_1_1_0_0_n_n none Q K (constant (F := Ideal) S1024x2048 .f32 0x00000000#32) (ix2 p kk)
      = ∑ d : Fin 64, Q (ix2 p d) * K (ix2 kk d) := by
  simp only [matmul]
  rw [Ideal.matmul_constant_zero_apply, ← Equiv.sum_comp (contrEquiv1 dot_S1024x64_S2048x64_S1024x2048_1_1_0_0_n_n 64 rfl rfl).symm]
  refine Finset.sum_congr rfl fun d _ => ?_
  have hd := contrEquiv1_symm_val dot_S1024x64_S2048x64_S1024x2048_1_1_0_0_n_n 64 rfl rfl d
  have el : dot_S1024x64_S2048x64_S1024x2048_1_1_0_0_n_n.lhsIdx (ix2 p kk) ((contrEquiv1 dot_S1024x64_S2048x64_S1024x2048_1_1_0_0_n_n 64 rfl rfl).symm d) = ix2 p d := funext fun a => Fin.ext (by
    match a with
    | ⟨0, _⟩ => exact qk_lhs0 _ _
    | ⟨1, _⟩ => exact (qk_lhs1 _ _).trans hd)
  have er : dot_S1024x64_S2048x64_S1024x2048_1_1_0_0_n_n.rhsIdx (ix2 p kk) ((contrEquiv1 dot_S1024x64_S2048x64_S1024x2048_1_1_0_0_n_n 64 rfl rfl).symm d) = ix2 kk d := funext fun a => Fin.ext (by
    match a with
    | ⟨0, _⟩ => exact qk_rhs0 _ _
    | ⟨1, _⟩ => exact (qk_rhs1 _ _).trans hd)
  rw [el, er]

/-- Normalised evidence against values, accumulated into zero: at (p, d) the sum over the key rows. -/
theorem pv_apply (A : FVec Ideal S1024x2048 .bf16) (B : FVec Ideal S2048x64 .bf16) (p : Fin 1024) (d : Fin 64) :
    matmul dot_S1024x2048_S2048x64_S1024x64_1_0_0_1_n_n none A B (constant (F := Ideal) S1024x64 .f32 0x00000000#32) (ix2 p d)
      = ∑ kk : Fin 2048, A (ix2 p kk) * B (ix2 kk d) := by
  rw [Cert.RowLib.dotDims_eq_plain dot_S1024x2048_S2048x64_S1024x64_1_0_0_1_n_n rfl rfl rfl rfl rfl rfl]
  exact Cert.RowLib.matmul_plain_zero_ix2 none A B p d

/-! ## The payloads at an index -/

/-- The evidence matrix at (p, kk). -/
theorem evidence_apply (v0 : Vec Ideal S1x1024x64 .bf16) (v2 : Vec Ideal S1x2048x64 .bf16) (v6 v8 : Vec Ideal S1x1 .f32)
    (p : Fin 1024) (kk : Fin 2048) :
    k3_pay2 v0 v2 v6 v8 (ix2 p kk) = evid (v6 (ix2 0 0)) (v8 (ix2 0 0)) v0 v2 p kk := by
  have hs : matmul (φ₁ := .bf16) (φ₂ := .bf16) dot_S1024x64_S2048x64_S1024x2048_1_1_0_0_n_n none (shapeCast S1024x64 v0 shapeCasts_S1x1024x64_S1024x64)
      (shapeCast S2048x64 v2 shapeCasts_S1x2048x64_S2048x64) (constant (F := Ideal) S1024x2048 .f32 0x00000000#32) (ix2 p kk)
        = ∑ d : Fin 64, v0 (ix3 0 p d) * v2 (ix3 0 kk d) := by
    refine (qk_apply _ _ p kk).trans (Finset.sum_congr rfl fun d _ => ?_)
    rw [shapeCast_1ab_ab_apply, shapeCast_1ab_ab_apply]
  unfold k3_pay2 evid
  show Ideal.exp (matmul (φ₁ := .bf16) (φ₂ := .bf16) dot_S1024x64_S2048x64_S1024x2048_1_1_0_0_n_n none (shapeCast S1024x64 v0 shapeCasts_S1x1024x64_S1024x64)
      (shapeCast S2048x64 v2 shapeCasts_S1x2048x64_S2048x64) (constant (F := Ideal) S1024x2048 .f32 0x00000000#32) (ix2 p kk)
        * Ideal.ofBits .f32 0x3E000000#32) * extractAt ![0, 0] v6 inpos_S1x1_p0_0 + Ideal.ofBits .f32 0x3F800000#32
        + extractAt ![0, 0] v8 inpos_S1x1_p0_0 = _
  rw [hs, extract_scalar, extract_scalar]

/-- The column of row totals at (p, ·). -/
theorem total_apply (v0 : Vec Ideal S1x1024x64 .bf16) (v2 : Vec Ideal S1x2048x64 .bf16) (v6 v8 : Vec Ideal S1x1 .f32)
    (p : Fin 1024) (u : Fin 1) :
    k3_pay3 v0 v2 v6 v8 (ix2 p u) = rowTotal (v6 (ix2 0 0)) (v8 (ix2 0 0)) v0 v2 p := by
  unfold k3_pay3
  refine (Cert.LibColumn.shapeCast_a_a1_apply _ shapeCasts_S1024_S1024x1 p u).trans ?_
  refine (Ideal.multiReduction_add_single (k3_pay2 v0 v2 v6 v8) 0x00000000#32 reduces_S1024x2048_S1024 (.inl rfl) rfl (ix1 p)).trans ?_
  unfold rowTotal
  refine Finset.sum_congr rfl fun kk _ => ?_
  have hl : reduces_S1024x2048_S1024.lift (ix1 p) kk = ix2 p kk :=
    funext fun a => Fin.ext (by match a with | ⟨0, _⟩ => rfl | ⟨1, _⟩ => rfl)
  rw [hl]
  exact evidence_apply v0 v2 v6 v8 p kk

/-- The number of key rows over the row total, as a column, at (p, ·). -/
theorem scaledRecip_apply (v0 : Vec Ideal S1x1024x64 .bf16) (v2 : Vec Ideal S1x2048x64 .bf16) (v6 v8 : Vec Ideal S1x1 .f32)
    (p : Fin 1024) (u : Fin 1) :
    k3_pay4 v0 v2 v6 v8 (ix2 p u)
      = Ideal.div (Ideal.ofBits .f32 0x45000000#32) (rowTotal (v6 (ix2 0 0)) (v8 (ix2 0 0)) v0 v2 p) := by
  unfold k3_pay4
  show Ideal.div (Ideal.ofBits .f32 0x45000000#32) (k3_pay3 v0 v2 v6 v8 (ix2 p u)) = _
  rw [total_apply]

/-- The same column stored as a [1,1024,1] block, at (0, p, 0). -/
theorem scaledRecipBlock_apply (v0 : Vec Ideal S1x1024x64 .bf16) (v2 : Vec Ideal S1x2048x64 .bf16) (v6 v8 : Vec Ideal S1x1 .f32)
    (p : Fin 1024) :
    k3_pay1 (k3_pay4 v0 v2 v6 v8) (ix3 0 p 0)
      = Ideal.div (Ideal.ofBits .f32 0x45000000#32) (rowTotal (v6 (ix2 0 0)) (v8 (ix2 0 0)) v0 v2 p) := by
  unfold k3_pay1
  refine (shapeCast_ab_1ab_apply (k3_pay4 v0 v2 v6 v8) shapeCasts_S1024x1_S1x1024x1 0 p 0).trans ?_
  exact scaledRecip_apply v0 v2 v6 v8 p 0

/-- The normalised evidence multiplied into the values, stored as a [1,1024,64] block, at (0, p, d). -/
theorem attend_apply (v0 : Vec Ideal S1x1024x64 .bf16) (v2 v4 : Vec Ideal S1x2048x64 .bf16) (v6 v8 : Vec Ideal S1x1 .f32)
    (p : Fin 1024) (d : Fin 64) :
    k3_pay5 v0 v2 v4 v6 v8 (ix3 0 p d)
      = ∑ kk : Fin 2048, Ideal.div (evid (v6 (ix2 0 0)) (v8 (ix2 0 0)) v0 v2 p kk)
          (rowTotal (v6 (ix2 0 0)) (v8 (ix2 0 0)) v0 v2 p) * v4 (ix3 0 kk d) := by
  unfold k3_pay5
  refine (shapeCast_ab_1ab_apply _ shapeCasts_S1024x64_S1x1024x64 0 p d).trans ?_
  refine (pv_apply _ _ p d).trans (Finset.sum_congr rfl fun kk _ => ?_)
  show Ideal.div (k3_pay2 v0 v2 v6 v8 (ix2 p kk))
      (broadcastTo S1024x2048 (k3_pay3 v0 v2 v6 v8) broadcasts_S1024x1_S1024x2048 (ix2 p kk))
        * shapeCast S2048x64 v4 shapeCasts_S1x2048x64_S2048x64 (ix2 kk d) = _
  rw [evidence_apply, Cert.LibColumn.broadcastTo_a1_ab_apply, total_apply, shapeCast_1ab_ab_apply]

/-! ## The two output blocks after the body -/

/-- The first output block at (0, p, d): the evidence of row p, normalised by its total, against column d of the values. -/
theorem out3_5_apply (x0 x1 : Vec Ideal S1x1 .f32) (x2 : Vec Ideal S1x1024x64 .bf16) (x3 x4 : Vec Ideal S1x2048x64 .bf16)
    (p : Fin 1024) (d : Fin 64) :
    Gen.out3_5 x0 x1 x2 x3 x4 (ix3 0 p d)
      = ∑ kk : Fin 2048, Ideal.div (evid (x0 (ix2 0 0)) (x1 (ix2 0 0)) x2 x3 p kk)
          (rowTotal (x0 (ix2 0 0)) (x1 (ix2 0 0)) x2 x3 p) * x4 (ix3 0 kk d) := by
  unfold Gen.out3_5
  rw [View.canon_unit_zero zeros3]
  simp only [View.ld_unit_zero (S := S1x1024x64) zeros3, View.ld_unit_zero (S := S1x2048x64) zeros3,
    View.ld_unit_zero (S := S1x1) zeros2]
  exact attend_apply x2 x3 x4 x0 x1 p d

/-- The second output block at (0, p, 0): the number of key rows over the total of row p. -/
theorem out3_6_apply (x0 x1 : Vec Ideal S1x1 .f32) (x2 : Vec Ideal S1x1024x64 .bf16) (x3 x4 : Vec Ideal S1x2048x64 .bf16)
    (p : Fin 1024) :
    Gen.out3_6 x0 x1 x2 x3 x4 (ix3 0 p 0)
      = Ideal.div (Ideal.ofBits .f32 0x45000000#32) (rowTotal (x0 (ix2 0 0)) (x1 (ix2 0 0)) x2 x3 p) := by
  unfold Gen.out3_6
  rw [View.canon_unit_zero zeros3]
  simp only [View.ld_unit_zero (S := S1x1024x64) zeros3, View.ld_unit_zero (S := S1x2048x64) zeros3,
    View.ld_unit_zero (S := S1x1) zeros2]
  exact scaledRecipBlock_apply x2 x3 x0 x1 p

end Cert.KernelIdeal.AttnBody

end
-- ==== Proof.AttnRows.lean ====
/-
  The attention launch, from blocks to arrays.

  The launch has 64 grid points: 32 heads times 2 tiles of 1024 query rows. The point of head bh and tile qi reads the two
  scalars, rows 1024·qi … 1024·qi + 1023 of the queries of head bh and all the keys and values of head bh, and writes
  back rows 1024·qi … of head bh of the two outputs. What it writes is the body's block (AttnBody): for each of its query
  rows the evidence against every key row, normalised by the row's total, multiplied into the values; and the number of
  key rows over the row's total. A row of either output depends on that row of the queries and on the keys and values of
  its head alone, so a point's block of an output is that block of ONE whole-array function; the 64 blocks tile the
  32 × 2048 rows, so after the launch each output array is that function of the arrays the launch was entered with.
-/
import proofs.«163043_j63943473103359_1_alg».proof.Proof.Gen.KernelIdeal.Frame
import proofs.«163043_j63943473103359_1_alg».proof.Proof.AttnBody
import Idealize.ShloMosaic.Lib.Pipeline.Value
import Idealize.ShloMosaic.Lib.ValueIdx

set_option maxRecDepth 16384

noncomputable section

open scoped BigOperators

namespace Cert.KernelIdeal.AttnRows

open Cert.KernelIdeal Cert.KernelIdeal.Gen Idealize.ShloMosaic Idealize.ShloMosaic.TcCoe Idealize.SL.Sem Idealize.ShloMosaic.ValueIdx
open Cert.KernelIdeal.AttnBody

/-! ## The whole-array functions -/

/-- The evidence of query row q of head bh for key row kk: exp(⟨Q_q, K_kk⟩ · 1/8) · scale + 1 + bias. -/
def headEvid (sc bi : S1x1.Idx → EReal) (Q K : S32x2048x64.Idx → EReal) (bh : Fin 32) (q kk : Fin 2048) : EReal :=
  Ideal.exp ((∑ d : Fin 64, Q (ix3 bh q d) * K (ix3 bh kk d)) * Ideal.ofBits .f32 0x3E000000#32) * sc (ix2 0 0)
    + Ideal.ofBits .f32 0x3F800000#32 + bi (ix2 0 0)

/-- The total evidence of query row q of head bh over all the key rows of the head. -/
def headTotal (sc bi : S1x1.Idx → EReal) (Q K : S32x2048x64.Idx → EReal) (bh : Fin 32) (q : Fin 2048) : EReal :=
  ∑ kk : Fin 2048, headEvid sc bi Q K bh q kk

/-- The first output: at (bh, q, d) the evidence of row q, normalised by its total, against column d of the head's values. -/
def attended (sc bi : S1x1.Idx → EReal) (Q K Vv : S32x2048x64.Idx → EReal) : S32x2048x64.Idx → EReal :=
  fun i => ∑ kk : Fin 2048, Ideal.div (headEvid sc bi Q K (i 0) (i 1) kk) (headTotal sc bi Q K (i 0) (i 1)) * Vv (ix3 (i 0) kk (i 2))

/-- The second output: at (bh, q, ·) the number of key rows over the total of row q. -/
def uncertainty (sc bi : S1x1.Idx → EReal) (Q K : S32x2048x64.Idx → EReal) : S32x2048x1.Idx → EReal :=
  fun i => Ideal.div (Ideal.ofBits .f32 0x45000000#32) (headTotal sc bi Q K (i 0) (i 1))

/-! ## A block's evidence is the head's

The body's evidence and totals over blocks that are the arrays read through index maps: when the maps send the block's
one scalar entry to the arrays' one entry, query row p of the block to row q of head bh and every key row of the block
to that key row of head bh, they are the head's evidence and total of row q. -/

theorem evid_of_block (sc bi : S1x1.Idx → EReal) (Q K : S32x2048x64.Idx → EReal) (e0 e1 : S1x1.Idx)
    (f2 : S1x1024x64.Idx → S32x2048x64.Idx) (f3 : S1x2048x64.Idx → S32x2048x64.Idx) (bh : Fin 32) (q : Fin 2048) (p : Fin 1024)
    (h0 : e0 = ix2 0 0) (h1 : e1 = ix2 0 0) (hq : ∀ d : Fin 64, f2 (ix3 0 p d) = ix3 bh q d)
    (hk : ∀ (kk : Fin 2048) (d : Fin 64), f3 (ix3 0 kk d) = ix3 bh kk d) (kk : Fin 2048) :
    evid (sc e0) (bi e1) (fun j => Q (f2 j)) (fun j => K (f3 j)) p kk = headEvid sc bi Q K bh q kk := by
  unfold evid headEvid
  subst h0 h1
  refine congrArg (fun s => Ideal.exp (s * Ideal.ofBits .f32 0x3E000000#32) * sc (ix2 0 0) + Ideal.ofBits .f32 0x3F800000#32 + bi (ix2 0 0)) ?_
  exact Finset.sum_congr rfl fun d _ => congrArg₂ (· * ·) (congrArg Q (hq d)) (congrArg K (hk kk d))

theorem total_of_block (sc bi : S1x1.Idx → EReal) (Q K : S32x2048x64.Idx → EReal) (e0 e1 : S1x1.Idx)
    (f2 : S1x1024x64.Idx → S32x2048x64.Idx) (f3 : S1x2048x64.Idx → S32x2048x64.Idx) (bh : Fin 32) (q : Fin 2048) (p : Fin 1024)
    (h0 : e0 = ix2 0 0) (h1 : e1 = ix2 0 0) (hq : ∀ d : Fin 64, f2 (ix3 0 p d) = ix3 bh q d)
    (hk : ∀ (kk : Fin 2048) (d : Fin 64), f3 (ix3 0 kk d) = ix3 bh kk d) :
    rowTotal (sc e0) (bi e1) (fun j => Q (f2 j)) (fun j => K (f3 j)) p = headTotal sc bi Q K bh q := by
  unfold rowTotal headTotal
  exact Finset.sum_congr rfl fun kk _ => evid_of_block sc bi Q K e0 e1 f2 f3 bh q p h0 h1 hq hk kk

variable (V : (c : Dev nD) → (b : Ref sig .tc) → Buf (Elt Ideal) ((c : Thread nD τ).loc b))

/-! ## The index maps over the grid -/

/-- The printed index maps over the 64 grid points: the scalars' block index is zero; the queries' and both outputs'
    head and tile indices move together; the keys' and values' head index moves with them and their tile index is zero;
    every feature block index is zero. -/
theorem idx3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 3) = win3_5.index t (0 : Fin 3) ∧ win3_2.index t (1 : Fin 3) = win3_5.index t (1 : Fin 3)
    ∧ win3_2.index t (2 : Fin 3) = 0
    ∧ win3_3.index t (0 : Fin 3) = win3_5.index t (0 : Fin 3) ∧ win3_3.index t (1 : Fin 3) = 0 ∧ win3_3.index t (2 : Fin 3) = 0
    ∧ win3_4.index t (0 : Fin 3) = win3_5.index t (0 : Fin 3) ∧ win3_4.index t (1 : Fin 3) = 0 ∧ win3_4.index t (2 : Fin 3) = 0
    ∧ win3_6.index t (0 : Fin 3) = win3_5.index t (0 : Fin 3) ∧ win3_6.index t (1 : Fin 3) = win3_5.index t (1 : Fin 3)
    ∧ win3_6.index t (2 : Fin 3) = 0
    ∧ win3_5.index t (2 : Fin 3) = 0 ∧ win3_5.index t (0 : Fin 3) ≤ 31 ∧ win3_5.index t (1 : Fin 3) ≤ 1 :=
  (by decide +kernel : ∀ t : Fin grid3.N, _)

/-- Every (head, tile) pair is some point's. -/
theorem onto3 : ∀ (b : Fin 32) (q : Fin 2), ∃ t : Fin cfg3.N, win3_5.index t = ![b.val, q.val, 0] :=
  (by decide +kernel : ∀ (b : Fin 32) (q : Fin 2), ∃ t : Fin grid3.N, win3_5.index t = ![b.val, q.val, 0])

/-! ## The first output -/

/-- What point t writes back to the first output is block t of the whole-array function: its 1024 query rows of its
    head against all the keys and values of the head. -/
theorem flushed3_out (c : Dev nD) (t : Fin cfg3.N) :
    (dat3 V c).flushed 5 t
      = ((cfg3.win 5).blk t).view.read (Elt Ideal)
          (attended (V c main_v25) (V c main_v26) (V c main_v18) (V c main_v21) (V c main_v24)) := by
  show (cfg3.win 5).cut (grid3.coords t) ((dat3 V c).after 5 t) = _
  rw [after3_5]
  obtain ⟨e00, e01, e10, e11, e20, e21, e22, e30, e31, e32, e40, e41, e42, -, -, -, e52, -, -⟩ := idx3 t
  funext y
  obtain ⟨u, p, d, rfl⟩ : ∃ (u : Fin 1) (p : Fin 1024) (d : Fin 64), y = ix3 u p d := ⟨y 0, y 1, y 2, eq_ix3 y⟩
  obtain rfl : u = 0 := Subsingleton.elim _ _
  refine (out3_5_apply _ _ _ _ _ p d).trans ?_
  let sc : S1x1.Idx → EReal := V c main_v25
  let bi : S1x1.Idx → EReal := V c main_v26
  let Q : S32x2048x64.Idx → EReal := V c main_v18
  let K : S32x2048x64.Idx → EReal := V c main_v21
  let Vv : S32x2048x64.Idx → EReal := V c main_v24
  show (∑ kk : Fin 2048, Ideal.div
        (evid (sc (((cfg3.win 0).blk t).view.emb (ix2 0 0))) (bi (((cfg3.win 1).blk t).view.emb (ix2 0 0)))
          (fun j => Q (((cfg3.win 2).blk t).view.emb j)) (fun j => K (((cfg3.win 3).blk t).view.emb j)) p kk)
        (rowTotal (sc (((cfg3.win 0).blk t).view.emb (ix2 0 0))) (bi (((cfg3.win 1).blk t).view.emb (ix2 0 0)))
          (fun j => Q (((cfg3.win 2).blk t).view.emb j)) (fun j => K (((cfg3.win 3).blk t).view.emb j)) p)
        * Vv (((cfg3.win 4).blk t).view.emb (ix3 0 kk d)))
      = attended sc bi Q K Vv (((cfg3.win 5).blk t).view.emb (ix3 0 p d))
  unfold attended
  have h0 : ((cfg3.win 0).blk t).view.emb (ix2 (0 : Fin 1) (0 : Fin 1)) = ix2 0 0 := by
    funext a; apply Fin.ext
    match a with
    | ⟨0, _⟩ => show win3_0.index t (0 : Fin 2) * 1 + 1 * 0 = 0; omega
    | ⟨1, _⟩ => show win3_0.index t (1 : Fin 2) * 1 + 1 * 0 = 0; omega
  have h1 : ((cfg3.win 1).blk t).view.emb (ix2 (0 : Fin 1) (0 : Fin 1)) = ix2 0 0 := by
    funext a; apply Fin.ext
    match a with
    | ⟨0, _⟩ => show win3_1.index t (0 : Fin 2) * 1 + 1 * 0 = 0; omega
    | ⟨1, _⟩ => show win3_1.index t (1 : Fin 2) * 1 + 1 * 0 = 0; omega
  have hq : ∀ d' : Fin 64, ((cfg3.win 2).blk t).view.emb (ix3 (0 : Fin 1) p d')
      = ix3 ((((cfg3.win 5).blk t).view.emb (ix3 (0 : Fin 1) p d)) 0) ((((cfg3.win 5).blk t).view.emb (ix3 (0 : Fin 1) p d)) 1) d' := by
    intro d'; funext a; apply Fin.ext
    match a with
    | ⟨0, _⟩ => show win3_2.index t (0 : Fin 3) * 1 + 1 * 0 = win3_5.index t (0 : Fin 3) * 1 + 1 * 0; omega
    | ⟨1, _⟩ => show win3_2.index t (1 : Fin 3) * 1024 + 1 * p.val = win3_5.index t (1 : Fin 3) * 1024 + 1 * p.val; omega
    | ⟨2, _⟩ => show win3_2.index t (2 : Fin 3) * 64 + 1 * d'.val = d'.val; omega
  have hk : ∀ (kk : Fin 2048) (d' : Fin 64), ((cfg3.win 3).blk t).view.emb (ix3 (0 : Fin 1) kk d')
      = ix3 ((((cfg3.win 5).blk t).view.emb (ix3 (0 : Fin 1) p d)) 0) kk d' := by
    intro kk d'; funext a; apply Fin.ext
    match a with
    | ⟨0, _⟩ => show win3_3.index t (0 : Fin 3) * 1 + 1 * 0 = win3_5.index t (0 : Fin 3) * 1 + 1 * 0; omega
    | ⟨1, _⟩ => show win3_3.index t (1 : Fin 3) * 2048 + 1 * kk.val = kk.val; omega
    | ⟨2, _⟩ => show win3_3.index t (2 : Fin 3) * 64 + 1 * d'.val = d'.val; omega
  have hv : ∀ kk : Fin 2048, ((cfg3.win 4).blk t).view.emb (ix3 (0 : Fin 1) kk d)
      = ix3 ((((cfg3.win 5).blk t).view.emb (ix3 (0 : Fin 1) p d)) 0) kk ((((cfg3.win 5).blk t).view.emb (ix3 (0 : Fin 1) p d)) 2) := by
    intro kk; funext a; apply Fin.ext
    match a with
    | ⟨0, _⟩ => show win3_4.index t (0 : Fin 3) * 1 + 1 * 0 = win3_5.index t (0 : Fin 3) * 1 + 1 * 0; omega
    | ⟨1, _⟩ => show win3_4.index t (1 : Fin 3) * 2048 + 1 * kk.val = kk.val; omega
    | ⟨2, _⟩ => show win3_4.index t (2 : Fin 3) * 64 + 1 * d.val = win3_5.index t (2 : Fin 3) * 64 + 1 * d.val; omega
  refine Finset.sum_congr rfl fun kk _ => ?_
  exact congrArg₂ (· * ·)
    (congrArg₂ Ideal.div (evid_of_block sc bi Q K _ _ _ _ _ _ p h0 h1 hq hk kk) (total_of_block sc bi Q K _ _ _ _ _ _ p h0 h1 hq hk))
    (congrArg Vv (hv kk))

/-- An index of the first output array is in point t's block iff each coordinate is in the block's range. -/
theorem mem_blk3_out (t : Fin cfg3.N) (i : S32x2048x64.Idx) :
    i ∈ ((cfg3.win 5).blk t).view.set ↔ ∀ a : Fin 3, win3_5.index t a * S1x1024x64.size a ≤ (i a).val
      ∧ (i a).val < win3_5.index t a * S1x1024x64.size a + S1x1024x64.size a := by
  show i ∈ ((View.whole main_v27_0).slice (win3_5.rect t)).set ↔ _
  rw [View.set_slice_whole, Rect.mem_set_unit]
  exact Iff.rfl

/-- The 64 blocks tile the first output: row r of head b is in the block of head b and tile r / 1024. -/
theorem cover3_out (i : S32x2048x64.Idx) :
    ∃ t : Fin cfg3.N, (cfg3.win 5).flush t = true ∧ i ∈ ((cfg3.win 5).blk t).view.set := by
  have hi0 : (i 0).val < 32 := (i 0).isLt
  have hi1 : (i 1).val < 2048 := (i 1).isLt
  have hi2 : (i 2).val < 64 := (i 2).isLt
  obtain ⟨t, ht⟩ := onto3 ⟨(i 0).val, hi0⟩ ⟨(i 1).val / 1024, by omega⟩
  have q0 : win3_5.index t (0 : Fin 3) = (i 0).val := congrFun ht 0
  have q1 : win3_5.index t (1 : Fin 3) = (i 1).val / 1024 := congrFun ht 1
  have q2 : win3_5.index t (2 : Fin 3) = 0 := congrFun ht 2
  refine ⟨t, flush3_5 t, ?_⟩
  rw [mem_blk3_out]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 1024 ≤ (i 1).val ∧ (i 1).val < win3_5.index t (1 : Fin 3) * 1024 + 1024; omega
  | ⟨2, _⟩ => show win3_5.index t (2 : Fin 3) * 64 ≤ (i 2).val ∧ (i 2).val < win3_5.index t (2 : Fin 3) * 64 + 64; omega

/-- After the launch the first output array is the whole-array function of the arrays the launch was entered with. -/
theorem array3_out (c : Dev nD) :
    (dat3 V c).arrAt 5 cfg3.N = attended (V c main_v25) (V c main_v26) (V c main_v18) (V c main_v21) (V c main_v24) :=
  (dat3 V c).arrAt_eq_of_cover 5 _ (fun t _ => flushed3_out V c t) (cover3_out)

/-! ## The second output -/

/-- What point t writes back to the second output is block t of the whole-array function: for each of its 1024 query
    rows of its head, the number of key rows over the row's total. -/
theorem flushed3_unc (c : Dev nD) (t : Fin cfg3.N) :
    (dat3 V c).flushed 6 t
      = ((cfg3.win 6).blk t).view.read (Elt Ideal)
          (uncertainty (V c main_v25) (V c main_v26) (V c main_v18) (V c main_v21)) := by
  show (cfg3.win 6).cut (grid3.coords t) ((dat3 V c).after 6 t) = _
  rw [after3_6]
  obtain ⟨e00, e01, e10, e11, e20, e21, e22, e30, e31, e32, -, -, -, e60, e61, -, -, -, -⟩ := idx3 t
  funext y
  obtain ⟨u, p, z, rfl⟩ : ∃ (u : Fin 1) (p : Fin 1024) (z : Fin 1), y = ix3 u p z := ⟨y 0, y 1, y 2, eq_ix3 y⟩
  obtain rfl : u = 0 := Subsingleton.elim _ _
  obtain rfl : z = 0 := Subsingleton.elim _ _
  refine (out3_6_apply _ _ _ _ _ p).trans ?_
  let sc : S1x1.Idx → EReal := V c main_v25
  let bi : S1x1.Idx → EReal := V c main_v26
  let Q : S32x2048x64.Idx → EReal := V c main_v18
  let K : S32x2048x64.Idx → EReal := V c main_v21
  show Ideal.div (Ideal.ofBits .f32 0x45000000#32)
        (rowTotal (sc (((cfg3.win 0).blk t).view.emb (ix2 0 0))) (bi (((cfg3.win 1).blk t).view.emb (ix2 0 0)))
          (fun j => Q (((cfg3.win 2).blk t).view.emb j)) (fun j => K (((cfg3.win 3).blk t).view.emb j)) p)
      = uncertainty sc bi Q K (((cfg3.win 6).blk t).view.emb (ix3 0 p 0))
  unfold uncertainty
  have h0 : ((cfg3.win 0).blk t).view.emb (ix2 (0 : Fin 1) (0 : Fin 1)) = ix2 0 0 := by
    funext a; apply Fin.ext
    match a with
    | ⟨0, _⟩ => show win3_0.index t (0 : Fin 2) * 1 + 1 * 0 = 0; omega
    | ⟨1, _⟩ => show win3_0.index t (1 : Fin 2) * 1 + 1 * 0 = 0; omega
  have h1 : ((cfg3.win 1).blk t).view.emb (ix2 (0 : Fin 1) (0 : Fin 1)) = ix2 0 0 := by
    funext a; apply Fin.ext
    match a with
    | ⟨0, _⟩ => show win3_1.index t (0 : Fin 2) * 1 + 1 * 0 = 0; omega
    | ⟨1, _⟩ => show win3_1.index t (1 : Fin 2) * 1 + 1 * 0 = 0; omega
  have hq : ∀ d' : Fin 64, ((cfg3.win 2).blk t).view.emb (ix3 (0 : Fin 1) p d')
      = ix3 ((((cfg3.win 6).blk t).view.emb (ix3 (0 : Fin 1) p (0 : Fin 1))) 0) ((((cfg3.win 6).blk t).view.emb (ix3 (0 : Fin 1) p (0 : Fin 1))) 1) d' := by
    intro d'; funext a; apply Fin.ext
    match a with
    | ⟨0, _⟩ => show win3_2.index t (0 : Fin 3) * 1 + 1 * 0 = win3_6.index t (0 : Fin 3) * 1 + 1 * 0; omega
    | ⟨1, _⟩ => show win3_2.index t (1 : Fin 3) * 1024 + 1 * p.val = win3_6.index t (1 : Fin 3) * 1024 + 1 * p.val; omega
    | ⟨2, _⟩ => show win3_2.index t (2 : Fin 3) * 64 + 1 * d'.val = d'.val; omega
  have hk : ∀ (kk : Fin 2048) (d' : Fin 64), ((cfg3.win 3).blk t).view.emb (ix3 (0 : Fin 1) kk d')
      = ix3 ((((cfg3.win 6).blk t).view.emb (ix3 (0 : Fin 1) p (0 : Fin 1))) 0) kk d' := by
    intro kk d'; funext a; apply Fin.ext
    match a with
    | ⟨0, _⟩ => show win3_3.index t (0 : Fin 3) * 1 + 1 * 0 = win3_6.index t (0 : Fin 3) * 1 + 1 * 0; omega
    | ⟨1, _⟩ => show win3_3.index t (1 : Fin 3) * 2048 + 1 * kk.val = kk.val; omega
    | ⟨2, _⟩ => show win3_3.index t (2 : Fin 3) * 64 + 1 * d'.val = d'.val; omega
  exact congrArg (Ideal.div (Ideal.ofBits .f32 0x45000000#32)) (total_of_block sc bi Q K _ _ _ _ _ _ p h0 h1 hq hk)

/-- An index of the second output array is in point t's block iff each coordinate is in the block's range. -/
theorem mem_blk3_unc (t : Fin cfg3.N) (i : S32x2048x1.Idx) :
    i ∈ ((cfg3.win 6).blk t).view.set ↔ ∀ a : Fin 3, win3_6.index t a * S1x1024x1.size a ≤ (i a).val
      ∧ (i a).val < win3_6.index t a * S1x1024x1.size a + S1x1024x1.size a := by
  show i ∈ ((View.whole main_v27_1).slice (win3_6.rect t)).set ↔ _
  rw [View.set_slice_whole, Rect.mem_set_unit]
  exact Iff.rfl

/-- The 64 blocks tile the second output: row r of head b is in the block of head b and tile r / 1024. -/
theorem cover3_unc (i : S32x2048x1.Idx) :
    ∃ t : Fin cfg3.N, (cfg3.win 6).flush t = true ∧ i ∈ ((cfg3.win 6).blk t).view.set := by
  have hi0 : (i 0).val < 32 := (i 0).isLt
  have hi1 : (i 1).val < 2048 := (i 1).isLt
  have hi2 : (i 2).val < 1 := (i 2).isLt
  obtain ⟨t, ht⟩ := onto3 ⟨(i 0).val, hi0⟩ ⟨(i 1).val / 1024, by omega⟩
  obtain ⟨-, -, -, -, -, -, -, -, -, -, -, -, -, e60, e61, e62, -, -, -⟩ := idx3 t
  have q0 : win3_5.index t (0 : Fin 3) = (i 0).val := congrFun ht 0
  have q1 : win3_5.index t (1 : Fin 3) = (i 1).val / 1024 := congrFun ht 1
  refine ⟨t, flush3_6 t, ?_⟩
  rw [mem_blk3_unc]
  intro a
  match a with
  | ⟨0, _⟩ => show win3_6.index t (0 : Fin 3) * 1 ≤ (i 0).val ∧ (i 0).val < win3_6.index t (0 : Fin 3) * 1 + 1; omega
  | ⟨1, _⟩ => show win3_6.index t (1 : Fin 3) * 1024 ≤ (i 1).val ∧ (i 1).val < win3_6.index t (1 : Fin 3) * 1024 + 1024; omega
  | ⟨2, _⟩ => show win3_6.index t (2 : Fin 3) * 1 ≤ (i 2).val ∧ (i 2).val < win3_6.index t (2 : Fin 3) * 1 + 1; omega

/-- After the launch the second output array is the whole-array function of the arrays the launch was entered with. -/
theorem array3_unc (c : Dev nD) :
    (dat3 V c).arrAt 6 cfg3.N = uncertainty (V c main_v25) (V c main_v26) (V c main_v18) (V c main_v21) :=
  (dat3 V c).arrAt_eq_of_cover 6 _ (fun t _ => flushed3_unc V c t) (cover3_unc)

end Cert.KernelIdeal.AttnRows

end
-- ==== Proof.Returned.lean ====
/-
  The idealized kernel's two results, as functions of the arguments.

  The attention launch leaves, per head and query row, the evidence-weighted mean of the value rows and the
  uncertainty 2048 / (total evidence); the host operations after it bring the row index back in front of the
  head index and merge the 16 heads of 64 into 1024 columns; the last projection launch multiplies by the output
  weights transposed and adds the output bias; two final recasts give the results their shapes.
-/
import proofs.«163043_j63943473103359_1_alg».proof.Proof.Entered
import proofs.«163043_j63943473103359_1_alg».proof.Proof.AttnRows

set_option maxRecDepth 16384

noncomputable section

namespace Cert.KernelIdeal.Returned

open Cert.KernelIdeal Cert.KernelIdeal.Gen Cert.KernelIdeal.Entered Idealize.ShloMosaic Idealize.ShloMosaic.TcCoe Idealize.SL.Sem

/-- Heads merged back: the row index in front of the head index, 16 heads of 64 as 1024 columns. -/
def merged (Y : S32x2048x64.Idx → EReal) : S4096x1024.Idx → EReal :=
  shapeCast S4096x1024 (transpose S2x2048x16x64 [0, 2, 1, 3] (shapeCast S2x16x2048x64 Y shapeCasts_S32x2048x64_S2x16x2048x64)
    transposes_S2x16x2048x64_S2x2048x16x64_0_2_1_3) shapeCasts_S2x2048x16x64_S4096x1024

section
variable (x0 : S2x2048x1024.Idx → EReal) (x1 x3 x5 x7 : S1024x1024.Idx → EReal) (x2 x4 x6 x8 : S1024.Idx → EReal) (x9 x10 : S1.Idx → EReal)

/-- What the attention launch writes to its first output. -/
def attnOut : S32x2048x64.Idx → EReal :=
  AttnRows.attended (cell x9) (cell x10) (heads (proj x0 x1 x2)) (heads (proj x0 x3 x4)) (heads (proj x0 x5 x6))
/-- What the attention launch writes to its second output. -/
def attnUnc : S32x2048x1.Idx → EReal :=
  AttnRows.uncertainty (cell x9) (cell x10) (heads (proj x0 x1 x2)) (heads (proj x0 x3 x4))
/-- The first result. -/
def out : S2x2048x1024.Idx → EReal :=
  shapeCast S2x2048x1024 (Rows.rowsDot (merged (attnOut x0 x1 x3 x5 x2 x4 x6 x9 x10)) (weightT x7) (biasRow x8)) shapeCasts_S4096x1024_S2x2048x1024
/-- The second result. -/
def unc : S2x16x2048.Idx → EReal :=
  shapeCast S2x16x2048 (attnUnc x0 x1 x3 x2 x4 x9 x10) shapeCasts_S32x2048x1_S2x16x2048
end

variable (m : (ℓ : Loc nD τ sig) → Buf (Elt Ideal) ℓ) (ρ : Dev nD → PrngReg) (c : Dev nD)

theorem attn_out_array : W6 m ρ c (Proc.devRef .tc main_v27_0)
    = attnOut (m ((c : Thread nD τ).loc main_arg0)) (m ((c : Thread nD τ).loc main_arg1)) (m ((c : Thread nD τ).loc main_arg3)) (m ((c : Thread nD τ).loc main_arg5)) (m ((c : Thread nD τ).loc main_arg2)) (m ((c : Thread nD τ).loc main_arg4)) (m ((c : Thread nD τ).loc main_arg6)) (m ((c : Thread nD τ).loc main_arg9)) (m ((c : Thread nD τ).loc main_arg10)) := by
  refine (W6_arr m ρ c 5).trans ?_
  rw [AttnRows.array3_out (V5 m ρ) c]
  show AttnRows.attended (W5 m ρ c (Proc.devRef .tc main_v25)) (W5 m ρ c (Proc.devRef .tc main_v26)) (W5 m ρ c (Proc.devRef .tc main_v18))
    (W5 m ρ c (Proc.devRef .tc main_v21)) (W5 m ρ c (Proc.devRef .tc main_v24)) = _
  rw [Entered.scale_cell, Entered.bias_cell, Entered.q_heads, Entered.k_heads, Entered.v_heads]
  rfl

theorem attn_unc_array : W6 m ρ c (Proc.devRef .tc main_v27_1)
    = attnUnc (m ((c : Thread nD τ).loc main_arg0)) (m ((c : Thread nD τ).loc main_arg1)) (m ((c : Thread nD τ).loc main_arg3)) (m ((c : Thread nD τ).loc main_arg2)) (m ((c : Thread nD τ).loc main_arg4)) (m ((c : Thread nD τ).loc main_arg9)) (m ((c : Thread nD τ).loc main_arg10)) := by
  refine (W6_arr m ρ c 6).trans ?_
  rw [AttnRows.array3_unc (V5 m ρ) c]
  show AttnRows.uncertainty (W5 m ρ c (Proc.devRef .tc main_v25)) (W5 m ρ c (Proc.devRef .tc main_v26)) (W5 m ρ c (Proc.devRef .tc main_v18))
    (W5 m ρ c (Proc.devRef .tc main_v21)) = _
  rw [Entered.scale_cell, Entered.bias_cell, Entered.q_heads, Entered.k_heads]
  rfl

/-- The first result buffer at the last boundary. -/
theorem out_value : W9 m ρ c (Proc.devRef .tc main_v32)
    = out (m ((c : Thread nD τ).loc main_arg0)) (m ((c : Thread nD τ).loc main_arg1)) (m ((c : Thread nD τ).loc main_arg3)) (m ((c : Thread nD τ).loc main_arg5)) (m ((c : Thread nD τ).loc main_arg7)) (m ((c : Thread nD τ).loc main_arg2)) (m ((c : Thread nD τ).loc main_arg4)) (m ((c : Thread nD τ).loc main_arg6)) (m ((c : Thread nD τ).loc main_arg8)) (m ((c : Thread nD τ).loc main_arg9)) (m ((c : Thread nD τ).loc main_arg10)) := by
  rw [Boundary.result_out]
  have h : W8 m ρ c (Proc.devRef .tc main_v31)
      = Rows.rowsDot (merged (attnOut (m ((c : Thread nD τ).loc main_arg0)) (m ((c : Thread nD τ).loc main_arg1)) (m ((c : Thread nD τ).loc main_arg3)) (m ((c : Thread nD τ).loc main_arg5)) (m ((c : Thread nD τ).loc main_arg2)) (m ((c : Thread nD τ).loc main_arg4)) (m ((c : Thread nD τ).loc main_arg6)) (m ((c : Thread nD τ).loc main_arg9)) (m ((c : Thread nD τ).loc main_arg10)))) (weightT (m ((c : Thread nD τ).loc main_arg7))) (biasRow (m ((c : Thread nD τ).loc main_arg8))) := by
    refine (W8_arr m ρ c 3).trans ?_
    rw [Rows.array4 (V7 m ρ) c]
    show Rows.rowsDot (W7 m ρ c (Proc.devRef .tc main_v30)) (W7 m ρ c (Proc.devRef .tc main_v8)) (W7 m ρ c (Proc.devRef .tc main_v12)) = _
    rw [Boundary.merged, attn_out_array, Boundary.wo_kept, Boundary.bo_kept, Boundary.first_wo, Boundary.first_bo]
    rfl
  rw [h]
  rfl

/-- The second result buffer at the last boundary. -/
theorem unc_value : W9 m ρ c (Proc.devRef .tc main_v33)
    = unc (m ((c : Thread nD τ).loc main_arg0)) (m ((c : Thread nD τ).loc main_arg1)) (m ((c : Thread nD τ).loc main_arg3)) (m ((c : Thread nD τ).loc main_arg2)) (m ((c : Thread nD τ).loc main_arg4)) (m ((c : Thread nD τ).loc main_arg9)) (m ((c : Thread nD τ).loc main_arg10)) := by
  rw [Boundary.result_unc, Boundary.unc_kept, attn_unc_array]
  rfl

end Cert.KernelIdeal.Returned

end
-- ==== Proof.LibRowCast.lean ====
/-
  General reads at an index of a reshape that splits the row axis of an [a·b, c] array into [a, b, c], or merges
  it back: row p·b + q of the flat array is row q of slab p.
-/
import Idealize.ShloMosaic.Lib.ValueIdx
import Idealize.ShloMosaic.Lib.ValueLayout
import Idealize.ShloMosaic.Lib.Pipeline.Value

noncomputable section

namespace Cert.RowCast

open Idealize.ShloMosaic Idealize.ShloMosaic.ValueIdx

variable {α : Type}

/-- Row q of slab p, among a slabs of b rows, lies below a·b. -/
theorem row_lt {n a b : ℕ} (hn : n = a * b) (p : Fin a) (q : Fin b) : p.val * b + q.val < n := by
  subst hn
  calc p.val * b + q.val < p.val * b + b := Nat.add_lt_add_left q.isLt _
    _ = (p.val + 1) * b := (Nat.succ_mul _ _).symm
    _ ≤ a * b := Nat.mul_le_mul_right _ p.isLt

/-- An [n, c] array with n = a·b cast to [a, b, c] reads, at (p, q, r), the operand at (p·b + q, r). -/
theorem shapeCast_split_apply {n a b c : ℕ} (hn : n = a * b) (v : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ v h (ix3 p q r) = v (ix2 ⟨p.val * b + q.val, row_lt hn p q⟩ r) :=
  shapeCast_apply v h _ _ (by
    rw [Shape.rowMajor_val_three, Shape.rowMajor_val_two]
    rfl)

/-- An [a, b, c] array cast to [n, c] with n = a·b reads, at (p·b + q, r), the operand at (p, q, r). -/
theorem shapeCast_merge_apply {n a b c : ℕ} (hn : n = a * b) (v : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ v h (ix2 ⟨p.val * b + q.val, row_lt hn p q⟩ r) = v (ix3 p q r) :=
  shapeCast_apply v h _ _ (by
    rw [Shape.rowMajor_val_three, Shape.rowMajor_val_two]
    rfl)

end Cert.RowCast

end
-- ==== Proof.Layout.lean ====
/-
  The kernel's host layout operations read at explicit coordinates, and the one arithmetic law.

  x : [2, 2048, 1024] flattened to rows puts (b, s) at row 2048·b + s; a weight matrix is transposed; a bias vector
  and a scalar become a one-row array and a one-cell array. Splitting 1024 columns into 16 heads of 64 and bringing
  the head in front of the row puts entry (2048·b + s, 64·h + d) at (16·b + h, s, d), and merging is the inverse,
  column e coming from head e / 64, coordinate e % 64. The float words 0x41000000 and 0x3E000000 are the reals 8 and
  1/8, so a product with the second is a quotient by the first, on every extended real.
-/
import proofs.«163043_j63943473103359_1_alg».proof.KernelIdeal
import proofs.«163043_j63943473103359_1_alg».proof.Proof.LibRowCast
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.KernelIdeal.Layout

open Idealize.ShloMosaic Idealize.ShloMosaic.TcCoe Idealize.SL.Sem
open Idealize.ShloMosaic.ValueIdx
open Cert.KernelIdeal

/-! ## Two constants -/

/-- The float pattern of `8.0` denotes the real `8`. -/
theorem eight : Ideal.ofBits .f32 0x41000000#32 = ((8 : ℝ) : EReal) := by
  simp [Ideal.ofBits, Ideal.ieee, -EReal.coe_mul]; norm_num

/-- The float pattern of `0.125` denotes the real `1 / 8`. -/
theorem eighth : Ideal.ofBits .f32 0x3E000000#32 = ((1 / 8 : ℝ) : EReal) := by
  simp [Ideal.ofBits, Ideal.ieee, -EReal.coe_mul]; norm_num

/-- Multiplying by an eighth is dividing by eight, at the infinities too. -/
theorem scale_law (x : EReal) :
    x * Ideal.ofBits .f32 0x3E000000#32 = Ideal.div x (Ideal.ofBits .f32 0x41000000#32) := by
  rw [eight, eighth, Ideal.div_coe (by norm_num : (8 : ℝ) ≠ 0)]

variable [Facts₀]
open Facts₀

variable {α : Type}

/-! ## The host's layout operations read at explicit coordinates -/

/-- The input with batch and position flattened into rows: row `2048 b + s` is position `s` of batch `b`. -/
theorem rows_in (x : S2x2048x1024.Idx → α) (b : Fin 2) (s : Fin 2048) (j : Fin 1024) :
    shapeCast S4096x1024 x shapeCasts_S2x2048x1024_S4096x1024 (ix2 ⟨b.val * 2048 + s.val, by omega⟩ j)
      = x (ix3 b s j) :=
  Cert.RowCast.shapeCast_merge_apply (n := 4096) (a := 2) (b := 2048) (c := 1024) rfl x
    shapeCasts_S2x2048x1024_S4096x1024 b s j

/-- A weight transposed and narrowed: exact floats are not changed by the narrowing, and the transpose swaps
    the two coordinates. -/
theorem weight_T (w : S1024x1024.Idx → EReal) (j e : Fin 1024) :
    (truncf .bf16 (transpose S1024x1024 [1, 0] (w : FVec Ideal S1024x1024 .f32)
        transposes_S1024x1024_S1024x1024_1_0) bitsLt_bf16_f32 : FVec Ideal S1024x1024 .bf16) (ix2 j e)
      = w (ix2 e j) := by
  rw [truncf_apply]
  exact transpose_ix2_apply (a := 1024) (b := 1024) w transposes_S1024x1024_S1024x1024_1_0 j e

/-- A bias as a one-row matrix. -/
theorem bias_row (x : S1024.Idx → α) (e : Fin 1024) :
    shapeCast S1x1024 x shapeCasts_S1024_S1x1024 (ix2 0 e) = x (ix1 e) :=
  shapeCast_a_1a_apply (a := 1024) x shapeCasts_S1024_S1x1024 0 e

/-- A one-element vector as a one-by-one matrix. -/
theorem cell (x : S1.Idx → α) :
    shapeCast S1x1 x shapeCasts_S1_S1x1 (ix2 0 0) = x (ix1 0) :=
  shapeCast_a_1a_apply (a := 1) x shapeCasts_S1_S1x1 0 0

/-- Splitting projected rows into heads: slab `16 b + h`, position `s`, lane `d` is row `2048 b + s`,
    feature `64 h + d`. -/
theorem split_heads (X : S4096x1024.Idx → α) (b : Fin 2) (h : Fin 16) (s : Fin 2048) (d : Fin 64) :
    shapeCast S32x2048x64 (transpose S2x16x2048x64 [0, 2, 1, 3]
        (shapeCast S2x2048x16x64 X shapeCasts_S4096x1024_S2x2048x16x64)
        transposes_S2x2048x16x64_S2x16x2048x64_0_2_1_3) shapeCasts_S2x16x2048x64_S32x2048x64
        (ix3 ⟨b.val * 16 + h.val, by omega⟩ s d)
      = X (ix2 ⟨b.val * 2048 + s.val, by omega⟩ ⟨h.val * 64 + d.val, by omega⟩) := by
  have hb := b.isLt; have hh := h.isLt; have hs := s.isLt; have hd := d.isLt
  rw [shapeCast_apply _ shapeCasts_S2x16x2048x64_S32x2048x64 _ (ix4 b h s d) (by
      rw [Shape.rowMajor_val_four, Shape.rowMajor_val_three]; rfl),
    transpose_apply [0, 2, 1, 3] _ transposes_S2x2048x16x64_S2x16x2048x64_0_2_1_3 (ix4 b h s d) (ix4 b s h d)
      (fun a => match a with | ⟨0, _⟩ => rfl | ⟨1, _⟩ => rfl | ⟨2, _⟩ => rfl | ⟨3, _⟩ => rfl)]
  exact shapeCast_apply X shapeCasts_S4096x1024_S2x2048x16x64 (ix4 b s h d) _ (by
    rw [Shape.rowMajor_val_two, Shape.rowMajor_val_four]
    show (b.val * 2048 + s.val) * 1024 + (h.val * 64 + d.val) = ((b.val * 2048 + s.val) * 16 + h.val) * 64 + d.val
    omega)

/-- Merging the heads back into features: row `2048 b + s`, feature `e` is slab `16 b + e / 64`,
    position `s`, lane `e % 64`. -/
theorem merge_heads (Y : S32x2048x64.Idx → α) (b : Fin 2) (s : Fin 2048) (e : Fin 1024) :
    shapeCast S4096x1024 (transpose S2x2048x16x64 [0, 2, 1, 3]
        (shapeCast S2x16x2048x64 Y shapeCasts_S32x2048x64_S2x16x2048x64)
        transposes_S2x16x2048x64_S2x2048x16x64_0_2_1_3) shapeCasts_S2x2048x16x64_S4096x1024
        (ix2 ⟨b.val * 2048 + s.val, by omega⟩ e)
      = Y (ix3 ⟨b.val * 16 + e.val / 64, by omega⟩ s ⟨e.val % 64, by omega⟩) := by
  have hb := b.isLt; have hs := s.isLt; have he := e.isLt
  rw [shapeCast_apply _ shapeCasts_S2x2048x16x64_S4096x1024 _
      (ix4 b s (⟨e.val / 64, by omega⟩ : Fin 16) (⟨e.val % 64, by omega⟩ : Fin 64)) (by
      rw [Shape.rowMajor_val_four, Shape.rowMajor_val_two]
      show ((b.val * 2048 + s.val) * 16 + e.val / 64) * 64 + e.val % 64 = (b.val * 2048 + s.val) * 1024 + e.val
      omega),
    transpose_apply [0, 2, 1, 3] _ transposes_S2x16x2048x64_S2x2048x16x64_0_2_1_3 _
      (ix4 b (⟨e.val / 64, by omega⟩ : Fin 16) s (⟨e.val % 64, by omega⟩ : Fin 64))
      (fun a => match a with | ⟨0, _⟩ => rfl | ⟨1, _⟩ => rfl | ⟨2, _⟩ => rfl | ⟨3, _⟩ => rfl)]
  exact shapeCast_apply Y shapeCasts_S32x2048x64_S2x16x2048x64 _ _ (by
    rw [Shape.rowMajor_val_three, Shape.rowMajor_val_four]; rfl)

/-- The output projection's rows unflattened: batch `b`, position `s` is row `2048 b + s`. -/
theorem out_rows (O : S4096x1024.Idx → α) (b : Fin 2) (s : Fin 2048) (e : Fin 1024) :
    shapeCast S2x2048x1024 O shapeCasts_S4096x1024_S2x2048x1024 (ix3 b s e)
      = O (ix2 ⟨b.val * 2048 + s.val, by omega⟩ e) :=
  Cert.RowCast.shapeCast_split_apply (n := 4096) (a := 2) (b := 2048) (c := 1024) rfl O
    shapeCasts_S4096x1024_S2x2048x1024 b s e

/-- The uncertainty column unflattened: batch `b`, head `h`, query `q` is slab `16 b + h`, row `q`. -/
theorem unc_rows (U : S32x2048x1.Idx → α) (b : Fin 2) (h : Fin 16) (q : Fin 2048) :
    shapeCast S2x16x2048 U shapeCasts_S32x2048x1_S2x16x2048 (ix3 b h q)
      = U (ix3 ⟨b.val * 16 + h.val, by omega⟩ q 0) :=
  shapeCast_apply U shapeCasts_S32x2048x1_S2x16x2048 _ _ (by
    rw [Shape.rowMajor_val_three, Shape.rowMajor_val_three]
    show ((b.val * 16 + h.val) * 2048 + q.val) * 1 + 0 = (b.val * 16 + h.val) * 2048 + q.val
    omega)

end Cert.KernelIdeal.Layout
-- ==== Proof.RefStages.lean ====
/-
  The reference's stages at explicit coordinates.

  The reference computes three projections y = x·Wᵀ + b of x : [2, 2048, 1024], splits their 1024 columns into 16
  heads of 64, takes per head the scores q·kᵀ / 8, the evidence exp(score)·scale + 1 + bias, its total over the key
  rows, the uncertainty 2048 / total and the probabilities evidence / total, multiplies the probabilities into the
  values, merges the heads and applies the output projection. Each statement below reads one of these stages at
  coordinates (b, s, e), (b, h, s, d), … as a formula over the stage before it: a contraction is a finite sum over
  the contracted coordinate, a reshape keeps the row-major position, a transpose permutes the coordinates, a
  broadcast repeats, and the host's sum from the zero word is the plain sum.
-/
import proofs.«163043_j63943473103359_1_alg».proof.Proof.Gen.ReferenceIdeal.Read
import Idealize.ShloMosaic.Lib.ValueIdx
import Idealize.ShloMosaic.PureOps.Ideal
import Idealize.ShloMosaic.PureOps.Ideal.Laws

noncomputable section

open Idealize.ShloMosaic Idealize.ShloMosaic.TcCoe Idealize.SL.Sem

namespace Cert.ReferenceIdeal.Stages

open Cert.ReferenceIdeal Cert.ReferenceIdeal.Read
open Idealize.ShloMosaic.ValueIdx

variable (x0 : S2x2048x1024.Idx → EReal) (x1 x3 x5 x7 : S1024x1024.Idx → EReal)
  (x2 x4 x6 x8 : S1024.Idx → EReal) (x9 x10 : S1.Idx → EReal)

/-- The query projection: row `s` of the input against row `e` of the weight, plus the bias at `e`. -/
theorem proj_q (b : Fin 2) (s : Fin 2048) (e : Fin 1024) :
    val_main_v3 (F := Ideal) x0 x1 x2 (ix3 b s e)
      = (∑ j : Fin 1024, x0 (ix3 b s j) * x1 (ix2 e j)) + x2 (ix1 e) := by
  rw [val_main_v3_apply, val_main_v0_apply, val_main_v2_apply, val_main_v1_apply]
  have hl : ∀ k : Fin 1024, lidx_main_v0 (ix3 b s e) k = ix3 b s k := fun k => funext fun a => by
    match a with | ⟨0, _⟩ => rfl | ⟨1, _⟩ => rfl | ⟨2, _⟩ => rfl
  have hr : ∀ k : Fin 1024, ridx_main_v0 (ix3 b s e) k = ix2 e k := fun k => funext fun a => by
    match a with | ⟨0, _⟩ => rfl | ⟨1, _⟩ => rfl
  have hb : idx_main_v1 (idx_main_v2 (ix3 b s e)) = ix1 e := funext fun a => by
    match a with | ⟨0, _⟩ => rfl
  simp only [hl, hr, hb, Ideal.addf_def]

/-- The key projection, in the same form. -/
theorem proj_k (b : Fin 2) (s : Fin 2048) (e : Fin 1024) :
    val_main_v9 (F := Ideal) x0 x3 x4 (ix3 b s e)
      = (∑ j : Fin 1024, x0 (ix3 b s j) * x3 (ix2 e j)) + x4 (ix1 e) := by
  rw [val_main_v9_apply, val_main_v6_apply, val_main_v8_apply, val_main_v7_apply]
  have hl : ∀ k : Fin 1024, lidx_main_v6 (ix3 b s e) k = ix3 b s k := fun k => funext fun a => by
    match a with | ⟨0, _⟩ => rfl | ⟨1, _⟩ => rfl | ⟨2, _⟩ => rfl
  have hr : ∀ k : Fin 1024, ridx_main_v6 (ix3 b s e) k = ix2 e k := fun k => funext fun a => by
    match a with | ⟨0, _⟩ => rfl | ⟨1, _⟩ => rfl
  have hb : idx_main_v7 (idx_main_v8 (ix3 b s e)) = ix1 e := funext fun a => by
    match a with | ⟨0, _⟩ => rfl
  simp only [hl, hr, hb, Ideal.addf_def]

/-- The value projection, in the same form. -/
theorem proj_v (b : Fin 2) (s : Fin 2048) (e : Fin 1024) :
    val_main_v15 (F := Ideal) x0 x5 x6 (ix3 b s e)
      = (∑ j : Fin 1024, x0 (ix3 b s j) * x5 (ix2 e j)) + x6 (ix1 e) := by
  rw [val_main_v15_apply, val_main_v12_apply, val_main_v14_apply, val_main_v13_apply]
  have hl : ∀ k : Fin 1024, lidx_main_v12 (ix3 b s e) k = ix3 b s k := fun k => funext fun a => by
    match a with | ⟨0, _⟩ => rfl | ⟨1, _⟩ => rfl | ⟨2, _⟩ => rfl
  have hr : ∀ k : Fin 1024, ridx_main_v12 (ix3 b s e) k = ix2 e k := fun k => funext fun a => by
    match a with | ⟨0, _⟩ => rfl | ⟨1, _⟩ => rfl
  have hb : idx_main_v13 (idx_main_v14 (ix3 b s e)) = ix1 e := funext fun a => by
    match a with | ⟨0, _⟩ => rfl
  simp only [hl, hr, hb, Ideal.addf_def]

/-- Splitting into 16 heads of 64: head `h`, lane `d` is feature `64 h + d`. -/
theorem heads_q (b : Fin 2) (h : Fin 16) (s : Fin 2048) (d : Fin 64) :
    val_main_v5 (F := Ideal) x0 x1 x2 (ix4 b h s d)
      = val_main_v3 (F := Ideal) x0 x1 x2 (ix3 b s ⟨h.val * 64 + d.val, by omega⟩) := by
  rw [val_main_v5_apply, val_main_v4_apply]
  have hb := b.isLt; have hh := h.isLt; have hs := s.isLt; have hd := d.isLt
  refine congrArg _ (funext fun a => Fin.ext ?_)
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The keys split into heads in the same way. -/
theorem heads_k (b : Fin 2) (h : Fin 16) (s : Fin 2048) (d : Fin 64) :
    val_main_v11 (F := Ideal) x0 x3 x4 (ix4 b h s d)
      = val_main_v9 (F := Ideal) x0 x3 x4 (ix3 b s ⟨h.val * 64 + d.val, by omega⟩) := by
  rw [val_main_v11_apply, val_main_v10_apply]
  have hb := b.isLt; have hh := h.isLt; have hs := s.isLt; have hd := d.isLt
  refine congrArg _ (funext fun a => Fin.ext ?_)
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The values split into heads in the same way. -/
theorem heads_v (b : Fin 2) (h : Fin 16) (s : Fin 2048) (d : Fin 64) :
    val_main_v17 (F := Ideal) x0 x5 x6 (ix4 b h s d)
      = val_main_v15 (F := Ideal) x0 x5 x6 (ix3 b s ⟨h.val * 64 + d.val, by omega⟩) := by
  rw [val_main_v17_apply, val_main_v16_apply]
  have hb := b.isLt; have hh := h.isLt; have hs := s.isLt; have hd := d.isLt
  refine congrArg _ (funext fun a => Fin.ext ?_)
  match a with
  | ⟨0, _⟩ => show (((b.val * 2048 + s.val) * 16 + h.val) * 64 + d.val) / 2097152 = b.val; omega
  | ⟨1, _⟩ => show (((b.val * 2048 + s.val) * 16 + h.val) * 64 + d.val) / 1024 % 2048 = s.val; omega
  | ⟨2, _⟩ => show (((b.val * 2048 + s.val) * 16 + h.val) * 64 + d.val) % 1024 = h.val * 64 + d.val; omega

/-- The evidence at query `q`, key `k`: `exp (⟨q, k⟩ / 8) · x9 + 1 + x10`. -/
theorem evid_ref (b : Fin 2) (h : Fin 16) (q k : Fin 2048) :
    val_main_v29 (F := Ideal) x0 x1 x2 x3 x4 x9 x10 (ix4 b h q k)
      = Ideal.exp (Ideal.div (∑ d : Fin 64, val_main_v5 (F := Ideal) x0 x1 x2 (ix4 b h q d)
            * val_main_v11 (F := Ideal) x0 x3 x4 (ix4 b h k d)) (Ideal.ofBits .f32 0x41000000#32))
          * x9 (ix1 0) + Ideal.ofBits .f32 0x3F800000#32 + x10 (ix1 0) := by
  rw [val_main_v29_apply, val_main_v26_apply, val_main_v24_apply, val_main_v21_apply, val_main_v20_apply,
    val_main_v18_apply, val_main_v19_apply, val_main_cst_apply, val_main_v23_apply, val_main_v22_apply,
    val_main_v25_apply, val_main_cst_0_apply, val_main_v28_apply, val_main_v27_apply]
  have hl : ∀ d : Fin 64, lidx_main_v18 (ix4 b h q k) d = ix4 b h q d := fun d => funext fun a => by
    match a with | ⟨0, _⟩ => rfl | ⟨1, _⟩ => rfl | ⟨2, _⟩ => rfl | ⟨3, _⟩ => rfl
  have hr : ∀ d : Fin 64, ridx_main_v18 (ix4 b h q k) d = ix4 b h k d := fun d => funext fun a => by
    match a with | ⟨0, _⟩ => rfl | ⟨1, _⟩ => rfl | ⟨2, _⟩ => rfl | ⟨3, _⟩ => rfl
  have h9 : idx_main_v22 (idx_main_v23 (ix4 b h q k)) = ix1 0 := funext fun a => by
    match a with | ⟨0, _⟩ => rfl
  have h10 : idx_main_v27 (idx_main_v28 (ix4 b h q k)) = ix1 0 := funext fun a => by
    match a with | ⟨0, _⟩ => rfl
  simp only [hl, hr, h9, h10, Ideal.addf_def, Ideal.mulf_def, Ideal.hostDivf_def, Ideal.hostUnary_exp_def,
    Ideal.ofBits_def]

/-- The row total: the evidence summed over all keys. -/
theorem total_ref (b : Fin 2) (h : Fin 16) (q : Fin 2048) :
    val_main_v31 (F := Ideal) x0 x1 x2 x3 x4 x9 x10 (ix4 b h q 0)
      = ∑ k : Fin 2048, val_main_v29 (F := Ideal) x0 x1 x2 x3 x4 x9 x10 (ix4 b h q k) := by
  rw [val_main_v31_apply, val_main_v30_apply, val_main_cst_1_apply]
  have hk : ∀ k : Fin 2048, idx_main_v30 (idx_main_v31 (ix4 b h q 0)) k = ix4 b h q k := fun k => funext fun a => by
    match a with | ⟨0, _⟩ => rfl | ⟨1, _⟩ => rfl | ⟨2, _⟩ => rfl | ⟨3, _⟩ => rfl
  simp only [hk, Ideal.ofBits_def]
  rw [Ideal.ofBits_zero_f32, zero_add]

/-- The uncertainty: `2048 / total`. -/
theorem unc_ref (b : Fin 2) (h : Fin 16) (q : Fin 2048) :
    val_main_v43 (F := Ideal) x0 x1 x2 x3 x4 x9 x10 (ix3 b h q)
      = Ideal.div (Ideal.ofBits .f32 0x45000000#32) (val_main_v31 (F := Ideal) x0 x1 x2 x3 x4 x9 x10 (ix4 b h q 0)) := by
  rw [val_main_v43_apply, val_main_v33_apply, val_main_v32_apply, val_main_cst_2_apply]
  have hb := b.isLt; have hh := h.isLt; have hq := q.isLt
  have hi : idx_main_v43 (ix3 b h q) = ix4 b h q 0 := funext fun a => Fin.ext (by
    match a with
    | ⟨0, _⟩ => show ((b.val * 16 + h.val) * 2048 + q.val) / 32768 = b.val; omega
    | ⟨1, _⟩ => show ((b.val * 16 + h.val) * 2048 + q.val) / 2048 % 16 = h.val; omega
    | ⟨2, _⟩ => show ((b.val * 16 + h.val) * 2048 + q.val) / 1 % 2048 = q.val; omega
    | ⟨3, _⟩ => rfl)
  simp only [hi, Ideal.hostDivf_def, Ideal.ofBits_def]

/-- Attention: the probabilities `evidence / total` of row `q` against the values, summed over all keys. -/
theorem attn_ref (b : Fin 2) (h : Fin 16) (q : Fin 2048) (d : Fin 64) :
    val_main_v36 (F := Ideal) x0 x1 x2 x3 x4 x5 x6 x9 x10 (ix4 b h q d)
      = ∑ k : Fin 2048, Ideal.div (val_main_v29 (F := Ideal) x0 x1 x2 x3 x4 x9 x10 (ix4 b h q k))
            (val_main_v31 (F := Ideal) x0 x1 x2 x3 x4 x9 x10 (ix4 b h q 0))
          * val_main_v17 (F := Ideal) x0 x5 x6 (ix4 b h k d) := by
  rw [val_main_v36_apply]
  have hl : ∀ k : Fin 2048, lidx_main_v36 (ix4 b h q d) k = ix4 b h q k := fun k => funext fun a => by
    match a with | ⟨0, _⟩ => rfl | ⟨1, _⟩ => rfl | ⟨2, _⟩ => rfl | ⟨3, _⟩ => rfl
  have hr : ∀ k : Fin 2048, ridx_main_v36 (ix4 b h q d) k = ix4 b h k d := fun k => funext fun a => by
    match a with | ⟨0, _⟩ => rfl | ⟨1, _⟩ => rfl | ⟨2, _⟩ => rfl | ⟨3, _⟩ => rfl
  have hz : ∀ k : Fin 2048, idx_main_v34 (ix4 b h q k) = ix4 b h q 0 := fun k => funext fun a => by
    match a with | ⟨0, _⟩ => rfl | ⟨1, _⟩ => rfl | ⟨2, _⟩ => rfl | ⟨3, _⟩ => rfl
  refine Finset.sum_congr rfl fun k _ => ?_
  rw [hl, hr, val_main_v35_apply, val_main_v34_apply, hz, Ideal.hostDivf_def]

/-- Merging the heads back: feature `e` is lane `e % 64` of head `e / 64`. -/
theorem merged_ref (b : Fin 2) (s : Fin 2048) (e : Fin 1024) :
    val_main_v38 (F := Ideal) x0 x1 x2 x3 x4 x5 x6 x9 x10 (ix3 b s e)
      = val_main_v36 (F := Ideal) x0 x1 x2 x3 x4 x5 x6 x9 x10 (ix4 b ⟨e.val / 64, by omega⟩ s ⟨e.val % 64, by omega⟩) := by
  rw [val_main_v38_apply, val_main_v37_apply]
  have hb := b.isLt; have hs := s.isLt; have he := e.isLt
  refine congrArg _ (funext fun a => Fin.ext ?_)
  match a with
  | ⟨0, _⟩ => show ((b.val * 2048 + s.val) * 1024 + e.val) / 2097152 = b.val; omega
  | ⟨1, _⟩ => show ((b.val * 2048 + s.val) * 1024 + e.val) / 64 % 16 = e.val / 64; omega
  | ⟨2, _⟩ => show ((b.val * 2048 + s.val) * 1024 + e.val) / 1024 % 2048 = s.val; omega
  | ⟨3, _⟩ => show ((b.val * 2048 + s.val) * 1024 + e.val) % 64 = e.val % 64; omega

/-- The output projection: row `s` of the merged heads against row `e` of the weight, plus the bias at `e`. -/
theorem out_ref (b : Fin 2) (s : Fin 2048) (e : Fin 1024) :
    val_main_v42 (F := Ideal) x0 x1 x2 x3 x4 x5 x6 x7 x8 x9 x10 (ix3 b s e)
      = (∑ j : Fin 1024, val_main_v38 (F := Ideal) x0 x1 x2 x3 x4 x5 x6 x9 x10 (ix3 b s j) * x7 (ix2 e j)) + x8 (ix1 e) := by
  rw [val_main_v42_apply, val_main_v39_apply, val_main_v41_apply, val_main_v40_apply]
  have hl : ∀ k : Fin 1024, lidx_main_v39 (ix3 b s e) k = ix3 b s k := fun k => funext fun a => by
    match a with | ⟨0, _⟩ => rfl | ⟨1, _⟩ => rfl | ⟨2, _⟩ => rfl
  have hr : ∀ k : Fin 1024, ridx_main_v39 (ix3 b s e) k = ix2 e k := fun k => funext fun a => by
    match a with | ⟨0, _⟩ => rfl | ⟨1, _⟩ => rfl
  have hb : idx_main_v40 (idx_main_v41 (ix3 b s e)) = ix1 e := funext fun a => by
    match a with | ⟨0, _⟩ => rfl
  simp only [hl, hr, hb, Ideal.addf_def]

end Cert.ReferenceIdeal.Stages
-- ==== Proof.Same.lean ====
/-
  The idealized kernel and the idealized reference compute one function.

  Index by index, stage by stage: a projection of the flattened rows is the reference's projection (the same
  inner product and bias, x's row (b, s) being row 2048·b + s); the heads layout is the reference's
  (head h of row (b, s) is columns 64·h … 64·h + 63, head index 16·b + h); the evidence agrees because a
  product with 1/8 is a quotient by 8 on every extended real; hence the row totals, the uncertainty, the
  evidence-weighted means of the value rows, the heads merged back, and the output projection agree.
  No law used here needs a finite operand: the precondition is never opened.
-/
import proofs.«163043_j63943473103359_1_alg».proof.Proof.Returned
import proofs.«163043_j63943473103359_1_alg».proof.Proof.Layout
import proofs.«163043_j63943473103359_1_alg».proof.Proof.RefStages

set_option maxRecDepth 16384

noncomputable section

namespace Cert.Same

open Cert.KernelIdeal Cert.KernelIdeal.Entered Cert.KernelIdeal.Returned Cert.KernelIdeal.AttnRows
open Idealize.ShloMosaic Idealize.ShloMosaic.ValueIdx

variable (x0 : S2x2048x1024.Idx → EReal) (x1 x3 x5 x7 : S1024x1024.Idx → EReal) (x2 x4 x6 x8 : S1024.Idx → EReal) (x9 x10 : S1.Idx → EReal)

theorem row_lt (b : Fin 2) (s : Fin 2048) : b.val * 2048 + s.val < 4096 := by omega
theorem head_lt (b : Fin 2) (h : Fin 16) : b.val * 16 + h.val < 32 := by omega
theorem col_lt (h : Fin 16) (d : Fin 64) : h.val * 64 + d.val < 1024 := by omega

/-- A projection of the flattened rows at row 2048·b + s, column e. -/
theorem proj_at (w : S1024x1024.Idx → EReal) (bb : S1024.Idx → EReal) (b : Fin 2) (s : Fin 2048) (e : Fin 1024) :
    proj x0 w bb (ix2 ⟨b.val * 2048 + s.val, row_lt b s⟩ e)
      = (∑ j : Fin 1024, x0 (ix3 b s j) * w (ix2 e j)) + bb (ix1 e) := by
  unfold proj Rows.rowsDot
  show (∑ j : Fin 1024, rows x0 (ix2 ⟨b.val * 2048 + s.val, row_lt b s⟩ j) * weightT w (ix2 j e)) + biasRow bb (ix2 (0 : Fin 1) e) = _
  refine congrArg₂ (· + ·) (Finset.sum_congr rfl fun j _ => ?_) ?_
  · exact congrArg₂ (· * ·) (Layout.rows_in x0 b s j) (Layout.weight_T w j e)
  · exact Layout.bias_row bb e

/-- The heads layout of a projection, against the projection. -/
theorem heads_at (w : S1024x1024.Idx → EReal) (bb : S1024.Idx → EReal) (b : Fin 2) (h : Fin 16) (s : Fin 2048) (d : Fin 64) :
    heads (proj x0 w bb) (ix3 ⟨b.val * 16 + h.val, head_lt b h⟩ s d)
      = (∑ j : Fin 1024, x0 (ix3 b s j) * w (ix2 ⟨h.val * 64 + d.val, col_lt h d⟩ j)) + bb (ix1 ⟨h.val * 64 + d.val, col_lt h d⟩) := by
  unfold heads
  rw [Layout.split_heads (proj x0 w bb) b h s d]
  exact proj_at x0 w bb b s _

theorem q_same (b : Fin 2) (h : Fin 16) (s : Fin 2048) (d : Fin 64) :
    heads (proj x0 x1 x2) (ix3 ⟨b.val * 16 + h.val, head_lt b h⟩ s d) = Cert.ReferenceIdeal.Read.val_main_v5 (F := Ideal) x0 x1 x2 (ix4 b h s d) := by
  rw [heads_at, Cert.ReferenceIdeal.Stages.heads_q x0 x1 x2 b h s d, Cert.ReferenceIdeal.Stages.proj_q x0 x1 x2 b s _]
theorem k_same (b : Fin 2) (h : Fin 16) (s : Fin 2048) (d : Fin 64) :
    heads (proj x0 x3 x4) (ix3 ⟨b.val * 16 + h.val, head_lt b h⟩ s d) = Cert.ReferenceIdeal.Read.val_main_v11 (F := Ideal) x0 x3 x4 (ix4 b h s d) := by
  rw [heads_at, Cert.ReferenceIdeal.Stages.heads_k x0 x3 x4 b h s d, Cert.ReferenceIdeal.Stages.proj_k x0 x3 x4 b s _]
theorem v_same (b : Fin 2) (h : Fin 16) (s : Fin 2048) (d : Fin 64) :
    heads (proj x0 x5 x6) (ix3 ⟨b.val * 16 + h.val, head_lt b h⟩ s d) = Cert.ReferenceIdeal.Read.val_main_v17 (F := Ideal) x0 x5 x6 (ix4 b h s d) := by
  rw [heads_at, Cert.ReferenceIdeal.Stages.heads_v x0 x5 x6 b h s d, Cert.ReferenceIdeal.Stages.proj_v x0 x5 x6 b s _]

/-- The evidence of query row q against key row k in head (b, h). -/
theorem evid_same (b : Fin 2) (h : Fin 16) (q k : Fin 2048) :
    headEvid (cell x9) (cell x10) (heads (proj x0 x1 x2)) (heads (proj x0 x3 x4)) ⟨b.val * 16 + h.val, head_lt b h⟩ q k
      = Cert.ReferenceIdeal.Read.val_main_v29 (F := Ideal) x0 x1 x2 x3 x4 x9 x10 (ix4 b h q k) := by
  unfold headEvid cell
  rw [Cert.ReferenceIdeal.Stages.evid_ref x0 x1 x3 x2 x4 x9 x10 b h q k, Layout.cell x9, Layout.cell x10, Layout.scale_law]
  refine congrArg (fun t => Ideal.exp (Ideal.div t _) * _ + _ + _) (Finset.sum_congr rfl fun d _ => ?_)
  rw [q_same, k_same]

/-- The total evidence of query row q in head (b, h). -/
theorem total_same (b : Fin 2) (h : Fin 16) (q : Fin 2048) :
    headTotal (cell x9) (cell x10) (heads (proj x0 x1 x2)) (heads (proj x0 x3 x4)) ⟨b.val * 16 + h.val, head_lt b h⟩ q
      = Cert.ReferenceIdeal.Read.val_main_v31 (F := Ideal) x0 x1 x2 x3 x4 x9 x10 (ix4 b h q 0) := by
  unfold headTotal
  rw [Cert.ReferenceIdeal.Stages.total_ref x0 x1 x3 x2 x4 x9 x10 b h q]
  exact Finset.sum_congr rfl fun k _ => evid_same x0 x1 x3 x2 x4 x9 x10 b h q k

/-- The second result. -/
theorem unc_same : unc x0 x1 x3 x2 x4 x9 x10 = Cert.ReferenceIdeal.Read.val_main_v43 (F := Ideal) x0 x1 x2 x3 x4 x9 x10 := by
  funext i
  obtain ⟨b, h, q, rfl⟩ : ∃ (b : Fin 2) (h : Fin 16) (q : Fin 2048), i = ix3 b h q := ⟨i 0, i 1, i 2, eq_ix3 i⟩
  unfold unc
  rw [Layout.unc_rows _ b h q, Cert.ReferenceIdeal.Stages.unc_ref x0 x1 x3 x2 x4 x9 x10 b h q]
  unfold attnUnc uncertainty
  exact congrArg (Ideal.div _) (total_same x0 x1 x3 x2 x4 x9 x10 b h q)

/-- The evidence-weighted mean of the value rows, per head and query row. -/
theorem attn_same (b : Fin 2) (h : Fin 16) (q : Fin 2048) (d : Fin 64) :
    attnOut x0 x1 x3 x5 x2 x4 x6 x9 x10 (ix3 ⟨b.val * 16 + h.val, head_lt b h⟩ q d)
      = Cert.ReferenceIdeal.Read.val_main_v36 (F := Ideal) x0 x1 x2 x3 x4 x5 x6 x9 x10 (ix4 b h q d) := by
  unfold attnOut attended
  rw [Cert.ReferenceIdeal.Stages.attn_ref x0 x1 x3 x5 x2 x4 x6 x9 x10 b h q d]
  refine Finset.sum_congr rfl fun k _ => ?_
  show Ideal.div (headEvid _ _ _ _ ⟨b.val * 16 + h.val, head_lt b h⟩ q k) (headTotal _ _ _ _ ⟨b.val * 16 + h.val, head_lt b h⟩ q)
      * heads (proj x0 x5 x6) (ix3 ⟨b.val * 16 + h.val, head_lt b h⟩ k d) = _
  rw [evid_same, total_same, v_same]

/-- The first result. -/
theorem out_same : out x0 x1 x3 x5 x7 x2 x4 x6 x8 x9 x10 = Cert.ReferenceIdeal.Read.val_main_v42 (F := Ideal) x0 x1 x2 x3 x4 x5 x6 x7 x8 x9 x10 := by
  funext i
  obtain ⟨b, s, e, rfl⟩ : ∃ (b : Fin 2) (s : Fin 2048) (e : Fin 1024), i = ix3 b s e := ⟨i 0, i 1, i 2, eq_ix3 i⟩
  unfold out
  rw [Layout.out_rows _ b s e, Cert.ReferenceIdeal.Stages.out_ref x0 x1 x3 x5 x7 x2 x4 x6 x8 x9 x10 b s e]
  unfold Rows.rowsDot
  show (∑ j : Fin 1024, merged (attnOut x0 x1 x3 x5 x2 x4 x6 x9 x10) (ix2 ⟨b.val * 2048 + s.val, row_lt b s⟩ j) * weightT x7 (ix2 j e))
      + biasRow x8 (ix2 (0 : Fin 1) e) = _
  refine congrArg₂ (· + ·) (Finset.sum_congr rfl fun j _ => ?_) (Layout.bias_row x8 e)
  refine congrArg₂ (· * ·) ?_ (Layout.weight_T x7 j e)
  unfold merged
  rw [Layout.merge_heads _ b s j, Cert.ReferenceIdeal.Stages.merged_ref x0 x1 x3 x5 x2 x4 x6 x9 x10 b s j]
  exact attn_same x0 x1 x3 x5 x2 x4 x6 x9 x10 b ⟨j.val / 64, by omega⟩ s ⟨j.val % 64, by omega⟩

end Cert.Same

end
-- ==== Proof.lean ====
/-
  The certificate's five claims for the evidence-attention layer: three projections of x, split into 16 heads;
  per head and query row the evidence exp(score / 8)·scale + 1 + bias against every key row, its total, the
  uncertainty 2048 / total and the evidence-weighted mean of the value rows; heads merged; an output projection.

  The three frame claims are the generated frames (the reference's is its generated run with the results dropped);
  no operation was rewritten by the idealization, so `preserves` is `True`. For `algebraic` both programs end, at
  the ideal values, with ONE pair of arrays: the kernel's run leaves its results at the last boundary's contents,
  which are the functions `Returned.out` and `Returned.unc` of the arguments; the reference's generated run leaves
  its stages' terms, which are the same functions (`Same.out_same`, `Same.unc_same`) — the kernel multiplies the
  scores by 1/8 where the reference divides by 8, equal on every extended real, and everything else is the same
  operation in the same order, read through different layouts.
-/
import proofs.«163043_j63943473103359_1_alg».proof.Defs
import proofs.«163043_j63943473103359_1_alg».proof.Proof.Gen.Kernel
import proofs.«163043_j63943473103359_1_alg».proof.Proof.Gen.Kernel.Frame
import proofs.«163043_j63943473103359_1_alg».proof.Proof.Gen.KernelIdeal
import proofs.«163043_j63943473103359_1_alg».proof.Proof.Gen.KernelIdeal.Frame
import proofs.«163043_j63943473103359_1_alg».proof.Proof.Gen.ReferenceIdeal
import proofs.«163043_j63943473103359_1_alg».proof.Proof.Gen.Pre_finite_inputs
import proofs.«163043_j63943473103359_1_alg».proof.Proof.Gen.ReferenceIdeal.Run
import proofs.«163043_j63943473103359_1_alg».proof.Proof.Gen.ReferenceIdeal.Read
import proofs.«163043_j63943473103359_1_alg».proof.Proof.Run
import proofs.«163043_j63943473103359_1_alg».proof.Proof.Returned
import proofs.«163043_j63943473103359_1_alg».proof.Proof.Same
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2.2)
    (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Returned.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.Returned.unc (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Results.run (F := Ideal) m ρ)
    obtain ⟨h32, h33, hargs⟩ := h c
    exact ⟨h32.trans (Cert.KernelIdeal.Returned.out_value m ρ c), h33.trans (Cert.KernelIdeal.Returned.unc_value m ρ c), hargs⟩
  · refine (θ_run Cert.ReferenceIdeal.defs _ _).mono (fun r h c => ?_) (Cert.ReferenceIdeal.Value.run (F := Ideal) m' ρ')
    obtain ⟨h42, h43, hargs⟩ := h c
    obtain ⟨g0, g1, g2, g3, g4, g5, g6, g7, g8, g9, g10⟩ := hagree c
    refine ⟨?_, ?_, hargs⟩
    · rw [h42, Cert.ReferenceIdeal.Read.val_main_v42_eq, g0, g1, g2, g3, g4, g5, g6, g7, g8, g9, g10]
      exact (Cert.Same.out_same _ _ _ _ _ _ _ _ _ _ _).symm
    · rw [h43, Cert.ReferenceIdeal.Read.val_main_v43_eq, g0, g1, g2, g3, g4, g9, g10]
      exact (Cert.Same.unc_same _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
